-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x12x2048x64 : Shape := ⟨4, ![2, 12, 2048, 64]⟩
abbrev S2x12x2048x2048 : Shape := ⟨4, ![2, 12, 2048, 2048]⟩
abbrev S_ : Shape := ⟨0, ![]⟩

class Facts : Prop where
  bcast_S_S2x12x2048x64 : S_.BroadcastsInDim S2x12x2048x64 (![] : Fin 0 → Fin S2x12x2048x64.rank)
  reducesTo_S2x12x2048x64_S_d0_1_2_3 : S2x12x2048x64.ReducesTo [0, 1, 2, 3] S_
  h_S_ : 0 < S_.numel

variable [Facts]

def fn {F : FTy → Type} [FloatOps F] (main_arg0 : FVec F S2x12x2048x64 .f32) (main_arg1 : FVec F S2x12x2048x64 .f32) (main_arg2 : FVec F S2x12x2048x64 .f32) (main_arg3 : IVec S2x12x2048x2048 1) : IVec S_ 1 :=
  let main_v0 : FVec F S2x12x2048x64 .f32 := Host.absf main_arg0
  let main_cst : FVec F S_ .f32 := constant S_ .f32 0x7F800000#32
  let main_v1 : FVec F S2x12x2048x64 .f32 := broadcastInDim S2x12x2048x64 ![] bcast_S_S2x12x2048x64 main_cst
  let main_v2 : IVec S2x12x2048x64 1 := cmpf .olt main_v0 main_v1
  let main_c : IVec S_ 1 := constantI S_ 1 1#1
  let main_v3 : IVec S_ 1 := (fun x v => Host.reduce IntOp.andi x v reducesTo_S2x12x2048x64_S_d0_1_2_3 h_S_) main_v2 main_c
  let main_v4 : FVec F S2x12x2048x64 .f32 := Host.absf main_arg1
  let main_cst_0 : FVec F S_ .f32 := constant S_ .f32 0x7F800000#32
  let main_v5 : FVec F S2x12x2048x64 .f32 := broadcastInDim S2x12x2048x64 ![] bcast_S_S2x12x2048x64 main_cst_0
  let main_v6 : IVec S2x12x2048x64 1 := cmpf .olt main_v4 main_v5
  let main_c_1 : IVec S_ 1 := constantI S_ 1 1#1
  let main_v7 : IVec S_ 1 := (fun x v => Host.reduce IntOp.andi x v reducesTo_S2x12x2048x64_S_d0_1_2_3 h_S_) main_v6 main_c_1
  let main_v8 : IVec S_ 1 := andi main_v3 main_v7
  let main_v9 : FVec F S2x12x2048x64 .f32 := Host.absf main_arg2
  let main_cst_2 : FVec F S_ .f32 := constant S_ .f32 0x7F800000#32
  let main_v10 : FVec F S2x12x2048x64 .f32 := broadcastInDim S2x12x2048x64 ![] bcast_S_S2x12x2048x64 main_cst_2
  let main_v11 : IVec S2x12x2048x64 1 := cmpf .olt main_v9 main_v10
  let main_c_3 : IVec S_ 1 := constantI S_ 1 1#1
  let main_v12 : IVec S_ 1 := (fun x v => Host.reduce IntOp.andi x v reducesTo_S2x12x2048x64_S_d0_1_2_3 h_S_) main_v11 main_c_3
  let main_v13 : IVec S_ 1 := andi main_v8 main_v12
  main_v13
-- ==== Kernel.lean ====
abbrev S2x12x2048x64 : Shape := ⟨4, ![2, 12, 2048, 64]⟩
abbrev S2x12x2048x2048 : Shape := ⟨4, ![2, 12, 2048, 2048]⟩
abbrev S24x2048x64 : Shape := ⟨3, ![24, 2048, 64]⟩
abbrev S24x2048x2048 : Shape := ⟨3, ![24, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S2048x64 : Shape := ⟨2, ![2048, 64]⟩
abbrev S1x256x64 : Shape := ⟨3, ![1, 256, 64]⟩
abbrev S256x64 : Shape := ⟨2, ![256, 64]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S2x12x2048x2048, .i1⟩
  | .hbm, ⟨4, _⟩ => ⟨S24x2048x64, .f32⟩
  | .hbm, ⟨5, _⟩ => ⟨S24x2048x64, .f32⟩
  | .hbm, ⟨6, _⟩ => ⟨S24x2048x64, .f32⟩
  | .hbm, ⟨7, _⟩ => ⟨S24x2048x2048, .i1⟩
  | .hbm, ⟨8, _⟩ => ⟨S24x2048x2048, .i32⟩
  | .hbm, ⟨9, _⟩ => ⟨S24x2048x64, .f32⟩
  | .hbm, ⟨10, _⟩ => ⟨S24x2048x2048, .f32⟩
  | .hbm, ⟨11, _⟩ => ⟨S2x12x2048x64, .f32⟩
  | .hbm, ⟨12, _⟩ => ⟨S2x12x2048x2048, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x2048, .i32⟩
  | .local _ .vmem, ⟨7, _⟩ => ⟨S1x1024x2048, .i32⟩
  | .local _ .vmem, ⟨8, _⟩ => ⟨S1x1024x64, .f32⟩
  | .local _ .vmem, ⟨9, _⟩ => ⟨S1x1024x64, .f32⟩
  | .local _ .vmem, ⟨10, _⟩ => ⟨S1x1024x2048, .f32⟩
  | .local _ .vmem, ⟨11, _⟩ => ⟨S1x1024x2048, .f32⟩
  | _, _ => ⟨S2x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![24, 2], ![false, false]⟩

def k0_mult1 : BitVec 32 :=
  let c0_i32 : BitVec 32 := 0#32
  let c256_i32 : BitVec 32 := 256#32
  let v6 : BitVec 32 := Scalar.muli c0_i32 c256_i32
  v6
def k0_off1 (c0_i32 : BitVec 32) : Fin 3 → Nat :=
  let c0_5 : Index := 0#32
  let c256_i32 : BitVec 32 := 256#32
  let v6 : BitVec 32 := Scalar.muli c0_i32 c256_i32
  let v7 : BitVec 32 := v6
  let v8 : Index := Scalar.indexCast v7
  let c0_6 : Index := 0#32
  ![0, v8.toNat, 0]
def k0_off2 (c0_i32 : BitVec 32) : Fin 3 → Nat :=
  let c0_7 : Index := 0#32
  let c256_i32 : BitVec 32 := 256#32
  let v6 : BitVec 32 := Scalar.muli c0_i32 c256_i32
  let v7 : BitVec 32 := v6
  let v12 : Index := Scalar.indexCast v7
  let c0_8 : Index := 0#32
  ![0, v12.toNat, 0]
def k0_mult2 : BitVec 32 :=
  let c1_i32 : BitVec 32 := 1#32
  let c256_i32_19 : BitVec 32 := 256#32
  let v40 : BitVec 32 := Scalar.muli c1_i32 c256_i32_19
  v40
def k0_mult3 : BitVec 32 :=
  let c2_i32 : BitVec 32 := 2#32
  let c256_i32_35 : BitVec 32 := 256#32
  let v74 : BitVec 32 := Scalar.muli c2_i32 c256_i32_35
  v74
def k0_mult4 : BitVec 32 :=
  let c3_i32 : BitVec 32 := 3#32
  let c256_i32_51 : BitVec 32 := 256#32
  let v108 : BitVec 32 := Scalar.muli c3_i32 c256_i32_51
  v108
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x12x2048x64_S24x2048x64 : S2x12x2048x64.ShapeCasts S24x2048x64
  shapeCasts_S2x12x2048x2048_S24x2048x2048 : S2x12x2048x2048.ShapeCasts S24x2048x2048
  natLt_1_32 : 1 < 32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  h_S1x256x64 : 0 < S1x256x64.numel
  shapeCasts_S1x256x64_S256x64 : S1x256x64.ShapeCasts S256x64
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  shapeCasts_S256x64_S1x256x64 : S256x64.ShapeCasts S1x256x64
  shapeCasts_S24x2048x64_S2x12x2048x64 : S24x2048x64.ShapeCasts S2x12x2048x64
  shapeCasts_S24x2048x2048_S2x12x2048x2048 : S24x2048x2048.ShapeCasts S2x12x2048x2048
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  k0_mult1_dvd : 256 ∣ k0_mult1.toNat
  k0_off1_inb : ∀ (r : Fin 4), ∀ a, (k0_off1 (BitVec.ofNat 32 r.val)) a + S1x256x64.size a ≤ S1x1024x64.size a
  k0_off2_inb : ∀ (r : Fin 4), ∀ a, (k0_off2 (BitVec.ofNat 32 r.val)) a + S1x256x2048.size a ≤ S1x1024x2048.size a
  k0_mult2_dvd : 256 ∣ k0_mult2.toNat
  k0_mult3_dvd : 256 ∣ k0_mult3.toNat
  k0_mult4_dvd : 256 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S24x2048x64.size a
  hwx0_0 : ∀ i : grid0.Coords, EltTy.bits .f32 = 32 ∨ (Rect.block (s := S24x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S24x2048x64.size a
  hwx0_1 : ∀ i : grid0.Coords, EltTy.bits .f32 = 32 ∨ (Rect.block (s := S24x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S24x2048x64.size a
  hwx0_2 : ∀ i : grid0.Coords, EltTy.bits .f32 = 32 ∨ (Rect.block (s := S24x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S24x2048x2048.size a
  hwx0_3 : ∀ i : grid0.Coords, EltTy.bits .i32 = 32 ∨ (Rect.block (s := S24x2048x2048) S1x1024x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S24x2048x64.size a
  hwx0_4 : ∀ i : grid0.Coords, EltTy.bits .f32 = 32 ∨ (Rect.block (s := S24x2048x64) S1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x2048.size a ≤ S24x2048x2048.size a
  hwx0_5 : ∀ i : grid0.Coords, EltTy.bits .f32 = 32 ∨ (Rect.block (s := S24x2048x2048) S1x1024x2048.size (cc0_transform_5 i) (hinb0_5 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x12x2048x64 : Shape := ⟨4, ![2, 12, 2048, 64]⟩
abbrev S2x12x2048x2048 : Shape := ⟨4, ![2, 12, 2048, 2048]⟩
abbrev S_ : Shape := ⟨0, ![]⟩
abbrev S2x12x2048 : Shape := ⟨3, ![2, 12, 2048]⟩
abbrev S2x12x2048x1 : Shape := ⟨4, ![2, 12, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S2x12x2048x2048, .i1⟩
  | .hbm, ⟨4, _⟩ => ⟨S2x12x2048x2048, .f32⟩
  | .hbm, ⟨5, _⟩ => ⟨S_, .f32⟩
  | .hbm, ⟨6, _⟩ => ⟨S2x12x2048x2048, .f32⟩
  | .hbm, ⟨7, _⟩ => ⟨S2x12x2048x2048, .f32⟩
  | .hbm, ⟨8, _⟩ => ⟨S_, .f32⟩
  | .hbm, ⟨9, _⟩ => ⟨S_, .f32⟩
  | .hbm, ⟨10, _⟩ => ⟨S2x12x2048x2048, .f32⟩
  | .hbm, ⟨11, _⟩ => ⟨S2x12x2048x2048, .f32⟩
  | .hbm, ⟨12, _⟩ => ⟨S_, .f32⟩
  | .hbm, ⟨13, _⟩ => ⟨S2x12x2048, .f32⟩
  | .hbm, ⟨14, _⟩ => ⟨S_, .f32⟩
  | .hbm, ⟨15, _⟩ => ⟨S2x12x2048, .f32⟩
  | .hbm, ⟨16, _⟩ => ⟨S2x12x2048, .f32⟩
  | .hbm, ⟨17, _⟩ => ⟨S2x12x2048x1, .f32⟩
  | .hbm, ⟨18, _⟩ => ⟨S2x12x2048x2048, .f32⟩
  | .hbm, ⟨19, _⟩ => ⟨S2x12x2048x2048, .f32⟩
  | .hbm, ⟨20, _⟩ => ⟨S2x12x2048x2048, .f32⟩
  | .hbm, ⟨21, _⟩ => ⟨S_, .f32⟩
  | .hbm, ⟨22, _⟩ => ⟨S2x12x2048, .f32⟩
  | .hbm, ⟨23, _⟩ => ⟨S2x12x2048x1, .f32⟩
  | .hbm, ⟨24, _⟩ => ⟨S2x12x2048x2048, .f32⟩
  | .hbm, ⟨25, _⟩ => ⟨S2x12x2048x2048, .f32⟩
  | .hbm, ⟨26, _⟩ => ⟨S2x12x2048x64, .f32⟩
  | _, _ => ⟨S2x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S2x12x2048x2048 : S_.BroadcastsInDim S2x12x2048x2048 (![] : Fin 0 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.Spec.lean ====
/-
  Scaled dot-product attention with a boolean mask, read one query row at a time over the extended reals.
  For a query row `Qi`, the key rows `K`, the value rows `V` and the row's mask bits `Mi`: the score of key `j` is
  `(∑ d, Qi d · K j d) · ½`; a masked position takes the fill value −10⁹ instead; the row is shifted by its maximum
  (a fold of `max` from −∞), exponentiated, and divided by the sum of the exponentials (a softmax); the context is the
  sum of the value rows weighted by those quotients. The three float literals stay as the bit patterns the programs
  print (½, −10⁹, −∞): the same pattern stands on both sides of every equation and is never evaluated.
-/
import Idealize.ShloMosaic.PureOps.Ideal.Laws
import Idealize.ShloMosaic.Lib.ValueIdx

noncomputable section

namespace Cert.Attention

open Idealize.ShloMosaic Idealize.ShloMosaic.ValueIdx

/-- The scale ½, the mask's fill value −10⁹ and the maximum's starting value −∞, as f32 patterns. -/
abbrev half : EReal := Ideal.ofBits .f32 0x3F000000#32
abbrev fill : EReal := Ideal.ofBits .f32 0xCE6E6B28#32
abbrev negInf : EReal := Ideal.ofBits .f32 0xFF800000#32

/-- The scaled score of a query row against key `j`. -/
def rowScore (Qi : Fin 64 → EReal) (K : Fin 2048 → Fin 64 → EReal) (j : Fin 2048) : EReal :=
  (∑ d : Fin 64, Qi d * K j d) * half

/-- The score with the mask applied: the fill value where the row's mask bit is set. -/
def rowMasked (Qi : Fin 64 → EReal) (K : Fin 2048 → Fin 64 → EReal) (Mi : Fin 2048 → BitVec 1) (j : Fin 2048) : EReal :=
  Scalar.select (Mi j) fill (rowScore Qi K j)

/-- The row's maximum, folded from −∞. -/
def rowMax (Qi : Fin 64 → EReal) (K : Fin 2048 → Fin 64 → EReal) (Mi : Fin 2048 → BitVec 1) : EReal :=
  (Finset.univ : Finset (Fin 2048)).fold max negInf (rowMasked Qi K Mi)

/-- The exponential of the shifted score. -/
def rowExp (Qi : Fin 64 → EReal) (K : Fin 2048 → Fin 64 → EReal) (Mi : Fin 2048 → BitVec 1) (j : Fin 2048) : EReal :=
  Ideal.exp (rowMasked Qi K Mi j - rowMax Qi K Mi)

/-- The softmax denominator. -/
def rowSum (Qi : Fin 64 → EReal) (K : Fin 2048 → Fin 64 → EReal) (Mi : Fin 2048 → BitVec 1) : EReal :=
  ∑ j : Fin 2048, rowExp Qi K Mi j

/-- The attention weight of key `j` for the row. -/
def rowAttn (Qi : Fin 64 → EReal) (K : Fin 2048 → Fin 64 → EReal) (Mi : Fin 2048 → BitVec 1) (j : Fin 2048) : EReal :=
  Ideal.div (rowExp Qi K Mi j) (rowSum Qi K Mi)

/-- The row's context: the value rows weighted by the attention weights. -/
def rowCtx (Qi : Fin 64 → EReal) (K V : Fin 2048 → Fin 64 → EReal) (Mi : Fin 2048 → BitVec 1) (d : Fin 64) : EReal :=
  ∑ j : Fin 2048, rowAttn Qi K Mi j * V j d

/-- The shapes of q, k, v and of the mask: (batch, head, position, feature) and (batch, head, query, key). -/
abbrev SQ : Shape := ⟨4, ![2, 12, 2048, 64]⟩
abbrev SP : Shape := ⟨4, ![2, 12, 2048, 2048]⟩

/-- The attention weights at (batch b, head h, query i, key j): row i of head (b, h). -/
def attnAt (q k : SQ.Idx → EReal) (msk : SP.Idx → BitVec 1) (b : Fin 2) (h : Fin 12) (i j : Fin 2048) : EReal :=
  rowAttn (fun d => q (ix4 b h i d)) (fun j' d => k (ix4 b h j' d)) (fun j' => msk (ix4 b h i j')) j

/-- The context at (batch b, head h, query i, feature d). -/
def ctxAt (q k v : SQ.Idx → EReal) (msk : SP.Idx → BitVec 1) (b : Fin 2) (h : Fin 12) (i : Fin 2048) (d : Fin 64) : EReal :=
  rowCtx (fun d' => q (ix4 b h i d')) (fun j d' => k (ix4 b h j d')) (fun j d' => v (ix4 b h j d'))
    (fun j => msk (ix4 b h i j)) d

/-- Both results as whole arrays. -/
def attnOut (q k : SQ.Idx → EReal) (msk : SP.Idx → BitVec 1) : SP.Idx → EReal :=
  fun y => attnAt q k msk (y 0) (y 1) (y 2) (y 3)
def ctxOut (q k v : SQ.Idx → EReal) (msk : SP.Idx → BitVec 1) : SQ.Idx → EReal :=
  fun y => ctxAt q k v msk (y 0) (y 1) (y 2) (y 3)

end Cert.Attention

end
-- ==== Proof.LibHostMaxRankFour.lean ====
/-
  The host's reduce with a maximum body over the LAST axis of a rank-4 array, read at an index written by its
  coordinates: the maximum, folded from the initial value, of the operand along that axis.
-/
import Idealize.ShloMosaic.PureOps.Ideal.Laws
import Idealize.ShloMosaic.Lib.ValueIdx

namespace Idealize.ShloMosaic.ValueIdx

open Idealize.ShloMosaic

variable {A B C D : ℕ}

/-- (a, b, c) with k put back on the last axis is (a, b, c, k). -/
theorem lift4_last (h : (⟨4, ![A, B, C, D]⟩ : Shape).Reduces [3] (⟨3, ![A, B, C]⟩ : Shape)) (a : Fin A) (b : Fin B) (c : Fin C)
    (k : Fin ((⟨4, ![A, B, C, D]⟩ : Shape).size 3)) : h.lift (ix3 a b c) k = ix4 a b c (⟨k.val, k.isLt⟩ : Fin D) := by
  funext x; apply Fin.ext
  fin_cases x <;> rfl

/-- A rank-4 array reduced by maximum over its last axis, at (a, b, c). -/
theorem hostReduceMax4_last (x : (⟨4, ![A, B, C, D]⟩ : Shape).Idx → EReal) (init : (⟨0, ![]⟩ : Shape).Idx → EReal)
    (h' : (⟨4, ![A, B, C, D]⟩ : Shape).ReducesTo [3] (⟨3, ![A, B, C]⟩ : Shape))
    (h : (⟨4, ![A, B, C, D]⟩ : Shape).Reduces [3] (⟨3, ![A, B, C]⟩ : Shape)) (hu : 0 < (⟨0, ![]⟩ : Shape).numel)
    (a : Fin A) (b : Fin B) (c : Fin C) :
    Host.reduce (FloatOps.maximumf (F := Ideal) (φ := .f32)) x init h' hu (ix3 a b c)
      = (Finset.univ : Finset (Fin D)).fold max (init (Shape.Idx.first hu)) fun k => x (ix4 a b c k) := by
  rw [Host.reduce_eq_fold_single _ x init h' h hu]
  exact congrArg (fun f : Fin D → EReal => (Finset.univ : Finset (Fin D)).fold max (init (Shape.Idx.first hu)) f)
    (funext fun k => congrArg x (lift4_last h a b c k))

end Idealize.ShloMosaic.ValueIdx
-- ==== Proof.RefIsSpec.lean ====
/-
  The reference program's two results are the specification's attention weights and context.
  Each stage of the reference (score, mask, row maximum, exponential, row sum, quotient, weighted sum of the value
  rows) is read at an index written by its coordinates (batch b, head h, query i, key j or feature d) and identified
  with the corresponding row function of the specification. Index by index both sides are the same extended reals;
  the float literals (the scale, the fill value, the maximum's starting value) stay as patterns and are never
  evaluated, except the zero the row sum starts from, which is the extended real 0.
-/
import proofs.«168028_j42829413876092_2_alg».proof.Proof.Gen.ReferenceIdeal.Read
import proofs.«168028_j42829413876092_2_alg».proof.Proof.Spec
import proofs.«168028_j42829413876092_2_alg».proof.Proof.LibHostMaxRankFour

noncomputable section

namespace Cert.Attention.Ref

open Idealize.ShloMosaic Idealize.ShloMosaic.ValueIdx Cert.ReferenceIdeal

/-! ## Index equations: where each stage reads its operands -/

/-- The score at (b, h, i, j) reads, at contraction position k, the query row's entry (b, h, i, k) … -/
theorem lidx_v0 (b : Fin 2) (h : Fin 12) (i j : Fin 2048) (k : Fin 64) :
    Read.lidx_main_v0 (ix4 b h i j) k = ix4 b h i k :=
  funext fun a => Fin.ext (by match a with | ⟨0, _⟩ => rfl | ⟨1, _⟩ => rfl | ⟨2, _⟩ => rfl | ⟨3, _⟩ => rfl)

/-- … and the key row's entry (b, h, j, k). -/
theorem ridx_v0 (b : Fin 2) (h : Fin 12) (i j : Fin 2048) (k : Fin 64) :
    Read.ridx_main_v0 (ix4 b h i j) k = ix4 b h j k :=
  funext fun a => Fin.ext (by match a with | ⟨0, _⟩ => rfl | ⟨1, _⟩ => rfl | ⟨2, _⟩ => rfl | ⟨3, _⟩ => rfl)

/-! ## The stages -/

/-- The masked score at (b, h, i, j). -/
theorem v3_at (x0 x1 : (⟨S2x12x2048x64, .f32⟩ : BufTy).Contents (Elt Ideal))
    (x3 : (⟨S2x12x2048x2048, .i1⟩ : BufTy).Contents (Elt Ideal)) (b : Fin 2) (h : Fin 12) (i j : Fin 2048) :
    Read.val_main_v3 (F := Ideal) x0 x1 x3 (ix4 b h i j)
      = rowMasked (fun d => x0 (ix4 b h i d)) (fun j' d => x1 (ix4 b h j' d)) (fun j' => x3 (ix4 b h i j')) j := by
  rw [Read.val_main_v3_apply, Read.val_main_call0_v1_apply, Read.val_main_call0_v0_apply, Read.val_main_cst_0_apply,
    Read.val_main_v2_apply, Read.val_main_v0_apply, Read.val_main_v1_apply, Read.val_main_cst_apply]
  simp only [lidx_v0, ridx_v0]
  rfl

/-- The row maximum at (b, h, i): the fold of the masked scores from the starting value; taking the maximum with the
    starting value once more changes nothing, because the fold is at least its starting value. -/
theorem v6_at (x0 x1 : (⟨S2x12x2048x64, .f32⟩ : BufTy).Contents (Elt Ideal))
    (x3 : (⟨S2x12x2048x2048, .i1⟩ : BufTy).Contents (Elt Ideal)) (b : Fin 2) (h : Fin 12) (i : Fin 2048) :
    Read.val_main_v6 (F := Ideal) x0 x1 x3 (ix3 b h i)
      = rowMax (fun d => x0 (ix4 b h i d)) (fun j' d => x1 (ix4 b h j' d)) (fun j' => x3 (ix4 b h i j')) := by
  rw [Read.val_main_v6_apply, Read.val_main_v5_apply, Read.val_main_cst_2_apply]
  unfold Read.val_main_v4
  rw [hostReduceMax4_last _ _ _ (by decide) _ b h i, Read.val_main_cst_1_apply]
  simp only [v3_at]
  exact max_eq_right ((Finset.le_fold_max _).mpr (Or.inl le_rfl))

/-- The two broadcasts of the row maximum read it at (b, h, i). -/
theorem idx_v7_v8 (b : Fin 2) (h : Fin 12) (i j : Fin 2048) :
    Read.idx_main_v7 (Read.idx_main_v8 (ix4 b h i j)) = ix3 b h i :=
  funext fun a => Fin.ext (by match a with | ⟨0, _⟩ => rfl | ⟨1, _⟩ => rfl | ⟨2, _⟩ => rfl)

/-- The exponential of the shifted score at (b, h, i, j). -/
theorem v10_at (x0 x1 : (⟨S2x12x2048x64, .f32⟩ : BufTy).Contents (Elt Ideal))
    (x3 : (⟨S2x12x2048x2048, .i1⟩ : BufTy).Contents (Elt Ideal)) (b : Fin 2) (h : Fin 12) (i j : Fin 2048) :
    Read.val_main_v10 (F := Ideal) x0 x1 x3 (ix4 b h i j)
      = rowExp (fun d => x0 (ix4 b h i d)) (fun j' d => x1 (ix4 b h j' d)) (fun j' => x3 (ix4 b h i j')) j := by
  rw [Read.val_main_v10_apply, Read.val_main_v9_apply, Read.val_main_v8_apply, Read.val_main_v7_apply, idx_v7_v8,
    v3_at, v6_at]
  rfl

/-- The row sum at (b, h, i) adds the exponentials at (b, h, i, ·). -/
theorem idx_v11 (b : Fin 2) (h : Fin 12) (i : Fin 2048) (k : Fin 2048) :
    Read.idx_main_v11 (ix3 b h i) k = ix4 b h i k :=
  funext fun a => Fin.ext (by match a with | ⟨0, _⟩ => rfl | ⟨1, _⟩ => rfl | ⟨2, _⟩ => rfl | ⟨3, _⟩ => rfl)

/-- The softmax denominator at (b, h, i): the sum starts from the extended real 0. -/
theorem v11_at (x0 x1 : (⟨S2x12x2048x64, .f32⟩ : BufTy).Contents (Elt Ideal))
    (x3 : (⟨S2x12x2048x2048, .i1⟩ : BufTy).Contents (Elt Ideal)) (b : Fin 2) (h : Fin 12) (i : Fin 2048) :
    Read.val_main_v11 (F := Ideal) x0 x1 x3 (ix3 b h i)
      = rowSum (fun d => x0 (ix4 b h i d)) (fun j' d => x1 (ix4 b h j' d)) (fun j' => x3 (ix4 b h i j')) := by
  rw [Read.val_main_v11_apply, Read.val_main_cst_3_apply, Ideal.ofBits_def, Ideal.ofBits_zero_f32, zero_add]
  simp only [idx_v11, v10_at]
  rfl

/-- The two broadcasts of the row sum read it at (b, h, i). -/
theorem idx_v12_v13 (b : Fin 2) (h : Fin 12) (i j : Fin 2048) :
    Read.idx_main_v12 (Read.idx_main_v13 (ix4 b h i j)) = ix3 b h i :=
  funext fun a => Fin.ext (by match a with | ⟨0, _⟩ => rfl | ⟨1, _⟩ => rfl | ⟨2, _⟩ => rfl)

/-- The attention weight at (b, h, i, j). -/
theorem v14_at (x0 x1 : (⟨S2x12x2048x64, .f32⟩ : BufTy).Contents (Elt Ideal))
    (x3 : (⟨S2x12x2048x2048, .i1⟩ : BufTy).Contents (Elt Ideal)) (b : Fin 2) (h : Fin 12) (i j : Fin 2048) :
    Read.val_main_v14 (F := Ideal) x0 x1 x3 (ix4 b h i j)
      = rowAttn (fun d => x0 (ix4 b h i d)) (fun j' d => x1 (ix4 b h j' d)) (fun j' => x3 (ix4 b h i j')) j := by
  rw [Read.val_main_v14_apply, Read.val_main_v13_apply, Read.val_main_v12_apply, idx_v12_v13, v10_at, v11_at]
  rfl

/-- The context at (b, h, i, d) reads, at contraction position k, the weight (b, h, i, k) … -/
theorem lidx_v15 (b : Fin 2) (h : Fin 12) (i : Fin 2048) (d : Fin 64) (k : Fin 2048) :
    Read.lidx_main_v15 (ix4 b h i d) k = ix4 b h i k :=
  funext fun a => Fin.ext (by match a with | ⟨0, _⟩ => rfl | ⟨1, _⟩ => rfl | ⟨2, _⟩ => rfl | ⟨3, _⟩ => rfl)

/-- … and the value row's entry (b, h, k, d). -/
theorem ridx_v15 (b : Fin 2) (h : Fin 12) (i : Fin 2048) (d : Fin 64) (k : Fin 2048) :
    Read.ridx_main_v15 (ix4 b h i d) k = ix4 b h k d :=
  funext fun a => Fin.ext (by match a with | ⟨0, _⟩ => rfl | ⟨1, _⟩ => rfl | ⟨2, _⟩ => rfl | ⟨3, _⟩ => rfl)

/-- The context at (b, h, i, d). -/
theorem v15_at (x0 x1 x2 : (⟨S2x12x2048x64, .f32⟩ : BufTy).Contents (Elt Ideal))
    (x3 : (⟨S2x12x2048x2048, .i1⟩ : BufTy).Contents (Elt Ideal)) (b : Fin 2) (h : Fin 12) (i : Fin 2048) (d : Fin 64) :
    Read.val_main_v15 (F := Ideal) x0 x1 x2 x3 (ix4 b h i d)
      = rowCtx (fun d' => x0 (ix4 b h i d')) (fun j d' => x1 (ix4 b h j d')) (fun j d' => x2 (ix4 b h j d'))
          (fun j => x3 (ix4 b h i j)) d := by
  rw [Read.val_main_v15_apply]
  simp only [lidx_v15, ridx_v15, v14_at]
  rfl

/-! ## The two results -/

/-- The reference's attention weights are the specification's. -/
theorem attn_eq (x0 x1 : (⟨S2x12x2048x64, .f32⟩ : BufTy).Contents (Elt Ideal))
    (x3 : (⟨S2x12x2048x2048, .i1⟩ : BufTy).Contents (Elt Ideal)) :
    Read.val_main_v14 (F := Ideal) x0 x1 x3 = Cert.Attention.attnOut x0 x1 x3 :=
  funext fun y => (congrArg (Read.val_main_v14 (F := Ideal) x0 x1 x3) (eq_ix4 y)).trans
    (v14_at x0 x1 x3 (y 0) (y 1) (y 2) (y 3))

/-- The reference's context is the specification's. -/
theorem ctx_eq (x0 x1 x2 : (⟨S2x12x2048x64, .f32⟩ : BufTy).Contents (Elt Ideal))
    (x3 : (⟨S2x12x2048x2048, .i1⟩ : BufTy).Contents (Elt Ideal)) :
    Read.val_main_v15 (F := Ideal) x0 x1 x2 x3 = Cert.Attention.ctxOut x0 x1 x2 x3 :=
  funext fun y => (congrArg (Read.val_main_v15 (F := Ideal) x0 x1 x2 x3) (eq_ix4 y)).trans
    (v15_at x0 x1 x2 x3 (y 0) (y 1) (y 2) (y 3))

end Cert.Attention.Ref

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.Slab.lean ====
/-
  One slab of the attention kernel, read at an index over the extended reals.
  The kernel body handles a block of 1024 query rows as four slabs of 256 rows. For one slab it forms the scores of
  the slab's query rows against all 2048 key rows (a matrix product over the 64 features, times ½), replaces the masked
  positions by the fill value, and takes a softmax along the key axis: the row maximum (folded from −∞) is subtracted,
  the exponentials are divided by their row sum. The slab's context is the product of those weights with the value rows.
  Row r of a slab therefore depends only on query row r, on all keys and values, and on row r of the mask: it is the
  per-row specification (rowAttn, rowCtx). Changes of float format are the identity on the extended reals, a matrix
  product into a zero accumulator is the plain sum over the contracted axis, and a lane reduction is the sum (or the
  fold of max) over the lane coordinate.
-/
import proofs.«168028_j42829413876092_2_alg».proof.Proof.Gen.KernelIdeal.Skeleton
import proofs.«168028_j42829413876092_2_alg».proof.Proof.Spec
import proofs.«168028_j42829413876092_2_alg».proof.Proof.LibColumnForms
import Idealize.ShloMosaic.Lib.ValueLayout
import Idealize.ShloMosaic.Lib.ValueIdx
import Idealize.ShloMosaic.PureOps.Ideal.Laws

noncomputable section

namespace Cert.KernelIdeal.Slab

open Cert.KernelIdeal Cert.KernelIdeal.Gen Idealize.ShloMosaic Idealize.ShloMosaic.ValueIdx Idealize.ShloMosaic.ValueLayout
open Cert.Attention

section AnyValues
variable {F : FTy → Type} [FloatOps F]

/-- The masked, scaled scores of a slab: where the mask word is not zero the fill value, elsewhere q·kᵀ·½. -/
def maskedScores (v2 : FVec F S2048x64 .bf16) (v111 : Vec F S1x256x64 .f32) (v115 : Vec F S1x256x2048 .i32) : FVec F S256x2048 .f32 :=
  have v112 : FVec F S256x64 .f32 := shapeCast S256x64 v111 shapeCasts_S1x256x64_S256x64
  have v113 : FVec F S256x64 .bf16 := truncf .bf16 v112 bitsLt_bf16_f32
  have v116 : IVec S256x2048 32 := shapeCast S256x2048 v115 shapeCasts_S1x256x2048_S256x2048
  have cst_56 : IVec S256x2048 32 := constantI S256x2048 32 0#32
  have v117 : IVec S256x2048 1 := cmpi .ne v116 cst_56
  have cst_57 : FVec F S256x2048 .f32 := constant S256x2048 .f32 0x00000000#32
  have v118 : FVec F S256x2048 .f32 := matmul dot_S256x64_S2048x64_S256x2048_1_1_0_0_n_n none v113 v2 cst_57
  have cst_58 : F .f32 := Scalar.ofBits .f32 0x3F000000#32
  have v119 : FVec F S256x2048 .f32 := broadcast S256x2048 cst_58
  have v120 : FVec F S256x2048 .f32 := mulf v118 v119
  have cst_59 : F .f32 := Scalar.ofBits .f32 0xCE6E6B28#32
  have v121 : FVec F S256x2048 .f32 := broadcast S256x2048 cst_59
  select v117 v121 v120

/-- Each row's maximum, spread back over the row. -/
def rowMaxCol (v122 : FVec F S256x2048 .f32) : FVec F S256x2048 .f32 :=
  have v123 : FVec F S256 .f32 := multiReduction .maximumf [1] S256 v122 0xFF800000#32 reduces_S256x2048_S256 (.inl rfl) rfl
  have v124 : FVec F S256x1 .f32 := shapeCast S256x1 v123 shapeCasts_S256_S256x1
  broadcastTo S256x2048 v124 broadcasts_S256x1_S256x2048

/-- The exponentials of the scores shifted by their row maximum. -/
def expShift (v122 : FVec F S256x2048 .f32) : FVec F S256x2048 .f32 :=
  exp (subf v122 (rowMaxCol v122))

/-- Each row's sum, spread back over the row. -/
def rowSumCol (v127 : FVec F S256x2048 .f32) : FVec F S256x2048 .f32 :=
  have v128 : FVec F S256 .f32 := multiReduction .add [1] S256 v127 0x00000000#32 reduces_S256x2048_S256 (.inl rfl) rfl
  have v129 : FVec F S256x1 .f32 := shapeCast S256x1 v128 shapeCasts_S256_S256x1
  broadcastTo S256x2048 v129 broadcasts_S256x1_S256x2048

/-- The softmax along the key axis as the kernel writes it. -/
def softmaxRows (v122 : FVec F S256x2048 .f32) : FVec F S256x2048 .f32 :=
  divf (expShift v122) (rowSumCol (expShift v122))

/-- A slab's attention weights are the softmax of its masked scores. -/
theorem pay1_eq (v2 : FVec F S2048x64 .bf16) (v111 : Vec F S1x256x64 .f32) (v115 : Vec F S1x256x2048 .i32) :
    k0_pay1 v2 v111 v115 = softmaxRows (maskedScores v2 v111 v115) := rfl

/-- The four slabs run the same operations: the payloads of slabs 0, 1 and 2 are those of slab 3 on their own loads. -/
theorem pay7_eq (v0 : Vec F S1x2048x64 .f32) (v9 : Vec F S1x256x64 .f32) (v13 : Vec F S1x256x2048 .i32) :
    k0_pay7 v0 v9 v13 = k0_pay2 (k0_pay4 v0) v9 v13 := rfl
theorem pay9_eq (v0 v3 : Vec F S1x2048x64 .f32) (v9 : Vec F S1x256x64 .f32) (v13 : Vec F S1x256x2048 .i32) :
    k0_pay9 (k0_pay8 v0 v3 v9 v13) = k0_pay3 (k0_pay4 v0) (k0_pay5 v3) v9 v13 := rfl
theorem pay11_eq (v2 : FVec F S2048x64 .bf16) (v43 : Vec F S1x256x64 .f32) (v47 : Vec F S1x256x2048 .i32) :
    k0_pay11 v2 v43 v47 = k0_pay2 v2 v43 v47 := rfl
theorem pay12_eq (v2 v5 : FVec F S2048x64 .bf16) (v43 : Vec F S1x256x64 .f32) (v47 : Vec F S1x256x2048 .i32) :
    k0_pay12 v2 v5 v43 v47 = k0_pay3 v2 v5 v43 v47 := rfl
theorem pay14_eq (v2 : FVec F S2048x64 .bf16) (v77 : Vec F S1x256x64 .f32) (v81 : Vec F S1x256x2048 .i32) :
    k0_pay14 v2 v77 v81 = k0_pay2 v2 v77 v81 := rfl
theorem pay15_eq (v2 v5 : FVec F S2048x64 .bf16) (v77 : Vec F S1x256x64 .f32) (v81 : Vec F S1x256x2048 .i32) :
    k0_pay15 v2 v5 v77 v81 = k0_pay3 v2 v5 v77 v81 := rfl

end AnyValues

/-! ## At the extended reals -/

/-- The reduced index r with lane k put back is (r, k). -/
theorem lift_row (h : S256x2048.Reduces [1] S256) (r : Fin 256) (k : Fin (S256x2048.size 1)) :
    h.lift (ix1 r) k = ix2 r (⟨k.val, k.isLt⟩ : Fin 2048) := by
  funext x; apply Fin.ext
  fin_cases x <;> rfl

/-- A vector of row values, made a column and spread over the lanes, reads the row's value everywhere in the row. -/
theorem col_apply {α : Type} (x : S256.Idx → α) (r : Fin 256) (j : Fin 2048) :
    broadcastTo S256x2048 (shapeCast S256x1 x shapeCasts_S256_S256x1) broadcasts_S256x1_S256x2048 (ix2 r j) = x (ix1 r) :=
  (broadcastTo_a1_ab_apply _ _ r j).trans (shapeCast_a_a1_apply x _ r 0)

/-- The row maximum at (r, j): the fold of max from −∞ over row r. -/
theorem rowMaxCol_apply (M : FVec Ideal S256x2048 .f32) (r : Fin 256) (j : Fin 2048) :
    rowMaxCol M (ix2 r j) = (Finset.univ : Finset (Fin 2048)).fold max negInf fun j' => M (ix2 r j') := by
  refine (col_apply _ r j).trans ?_
  refine (Ideal.multiReduction_maximumf_single M 0xFF800000#32 reduces_S256x2048_S256 (.inl rfl) rfl (ix1 r)).trans ?_
  exact congrArg (fun f : Fin 2048 → EReal => (Finset.univ : Finset (Fin 2048)).fold max negInf f)
    (funext fun k => congrArg M (lift_row _ r k))

/-- The shifted exponential at (r, j). -/
theorem expShift_apply (M : FVec Ideal S256x2048 .f32) (r : Fin 256) (j : Fin 2048) :
    expShift M (ix2 r j)
      = Ideal.exp (M (ix2 r j) - (Finset.univ : Finset (Fin 2048)).fold max negInf fun j' => M (ix2 r j')) := by
  show Ideal.exp (M (ix2 r j) - rowMaxCol M (ix2 r j)) = _
  rw [rowMaxCol_apply]

/-- The row sum at (r, j): the sum over row r. -/
theorem rowSumCol_apply (E : FVec Ideal S256x2048 .f32) (r : Fin 256) (j : Fin 2048) :
    rowSumCol E (ix2 r j) = ∑ j' : Fin 2048, E (ix2 r j') := by
  refine (col_apply _ r j).trans ?_
  refine (Ideal.multiReduction_add_single E 0x00000000#32 reduces_S256x2048_S256 (.inl rfl) rfl (ix1 r)).trans ?_
  exact Finset.sum_congr rfl fun k _ => congrArg E (lift_row _ r k)

/-- The softmax at (r, j) in terms of row r alone. -/
theorem softmaxRows_apply (M : FVec Ideal S256x2048 .f32) (r : Fin 256) (j : Fin 2048) :
    softmaxRows M (ix2 r j)
      = Ideal.div (Ideal.exp (M (ix2 r j) - (Finset.univ : Finset (Fin 2048)).fold max negInf fun j' => M (ix2 r j')))
          (∑ j' : Fin 2048, Ideal.exp (M (ix2 r j') - (Finset.univ : Finset (Fin 2048)).fold max negInf fun j'' => M (ix2 r j''))) := by
  show Ideal.div (expShift M (ix2 r j)) (rowSumCol (expShift M) (ix2 r j)) = _
  rw [rowSumCol_apply, expShift_apply]
  exact congrArg (Ideal.div _) (Finset.sum_congr rfl fun j' _ => expShift_apply M r j')

/-- Which operand coordinates an output position and a contraction position of the two matrix products name. -/
theorem lhs1_0 (i : S256x2048.Idx) (q : dot_S256x64_S2048x64_S256x2048_1_1_0_0_n_n.contr.Idx) : (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide),
    dif_pos (show (0 : Fin S256x64.rank) ∈ dot_S256x64_S2048x64_S256x2048_1_1_0_0_n_n.lhsNonContracting by decide)]
  rfl
theorem lhs1_1 (i : S256x2048.Idx) (q : dot_S256x64_S2048x64_S256x2048_1_1_0_0_n_n.contr.Idx) : (dot_S256x64_S2048x64_S256x2048_1_1_0_0_n_n.lhsIdx i q 1).val = (q ⟨0, by decide⟩).val :=
  dot_S256x64_S2048x64_S256x2048_1_1_0_0_n_n.lhsIdx_val_of_single rfl i q
theorem rhs1_0 (i : S256x2048.Idx) (q : dot_S256x64_S2048x64_S256x2048_1_1_0_0_n_n.contr.Idx) : (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide),
    dif_pos (show (0 : Fin S2048x64.rank) ∈ dot_S256x64_S2048x64_S256x2048_1_1_0_0_n_n.rhsNonContracting by decide)]
  rfl
theorem rhs1_1 (i : S256x2048.Idx) (q : dot_S256x64_S2048x64_S256x2048_1_1_0_0_n_n.contr.Idx) : (dot_S256x64_S2048x64_S256x2048_1_1_0_0_n_n.rhsIdx i q 1).val = (q ⟨0, by decide⟩).val :=
  dot_S256x64_S2048x64_S256x2048_1_1_0_0_n_n.rhsIdx_val_of_single rfl i q
theorem lhs2_0 (i : S256x64.Idx) (q : dot_S256x2048_S2048x64_S256x64_1_0_0_1_n_n.contr.Idx) : (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl
theorem lhs2_1 (i : S256x64.Idx) (q : dot_S256x2048_S2048x64_S256x64_1_0_0_1_n_n.contr.Idx) : (dot_S256x2048_S2048x64_S256x64_1_0_0_1_n_n.lhsIdx i q 1).val = (q ⟨0, by decide⟩).val :=
  dot_S256x2048_S2048x64_S256x64_1_0_0_1_n_n.lhsIdx_val_of_single rfl i q
theorem rhs2_0 (i : S256x64.Idx) (q : dot_S256x2048_S2048x64_S256x64_1_0_0_1_n_n.contr.Idx) : (dot_S256x2048_S2048x64_S256x64_1_0_0_1_n_n.rhsIdx i q 0).val = (q ⟨0, by decide⟩).val :=
  dot_S256x2048_S2048x64_S256x64_1_0_0_1_n_n.rhsIdx_val_of_single rfl i q
theorem rhs2_1 (i : S256x64.Idx) (q : dot_S256x2048_S2048x64_S256x64_1_0_0_1_n_n.contr.Idx) : (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-- The scores of a slab at (r, j): query row r against key row j, summed over the 64 features. -/
theorem scores_apply (kb : FVec Ideal S2048x64 .bf16) (qs : Vec Ideal S1x256x64 .f32) (r : Fin 256) (j : Fin 2048) :
    matmul dot_S256x64_S2048x64_S256x2048_1_1_0_0_n_n none
        (truncf .bf16 (shapeCast S256x64 qs shapeCasts_S1x256x64_S256x64 : FVec Ideal S256x64 .f32) bitsLt_bf16_f32) kb
        (constant (F := Ideal) S256x2048 .f32 0x00000000#32) (ix2 r j)
      = ∑ d : Fin 64, qs (ix3 (0 : Fin 1) r d) * kb (ix2 j d) := by
  refine (Ideal.matmul_constant_zero_apply dot_S256x64_S2048x64_S256x2048_1_1_0_0_n_n none _ kb (ix2 r j)).trans ?_
  rw [← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx (ix2 r j)
      ((contrEquiv1 dot_S256x64_S2048x64_S256x2048_1_1_0_0_n_n 64 rfl rfl).symm k) = ix2 r k := funext fun a => Fin.ext (by
    match a with
    | ⟨0, _⟩ => exact lhs1_0 _ _
    | ⟨1, _⟩ => exact (lhs1_1 _ _).trans hk)
  have er : dot_S256x64_S2048x64_S256x2048_1_1_0_0_n_n.rhsIdx (ix2 r j)
      ((contrEquiv1 dot_S256x64_S2048x64_S256x2048_1_1_0_0_n_n 64 rfl rfl).symm k) = ix2 j k := funext fun a => Fin.ext (by
    match a with
    | ⟨0, _⟩ => exact rhs1_0 _ _
    | ⟨1, _⟩ => exact (rhs1_1 _ _).trans hk)
  rw [el, er]
  show shapeCast S256x64 qs shapeCasts_S1x256x64_S256x64 (ix2 r k) * kb (ix2 j k) = _
  rw [shapeCast_1ab_ab_apply]

/-- The weights of a slab against the value rows at (r, d): summed over the 2048 keys. -/
theorem weighted_apply (A : FVec Ideal S256x2048 .f32) (vb : FVec Ideal S2048x64 .bf16) (r : Fin 256) (d : Fin 64) :
    matmul dot_S256x2048_S2048x64_S256x64_1_0_0_1_n_n none (truncf .bf16 A bitsLt_bf16_f32) vb
        (constant (F := Ideal) S256x64 .f32 0x00000000#32) (ix2 r d)
      = ∑ j : Fin 2048, A (ix2 r j) * vb (ix2 j d) := by
  refine (Ideal.matmul_constant_zero_apply dot_S256x2048_S2048x64_S256x64_1_0_0_1_n_n none _ vb (ix2 r d)).trans ?_
  rw [← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r d)
      ((contrEquiv1 dot_S256x2048_S2048x64_S256x64_1_0_0_1_n_n 2048 rfl rfl).symm k) = ix2 r k := funext fun a => Fin.ext (by
    match a with
    | ⟨0, _⟩ => exact lhs2_0 _ _
    | ⟨1, _⟩ => exact (lhs2_1 _ _).trans hk)
  have er : dot_S256x2048_S2048x64_S256x64_1_0_0_1_n_n.rhsIdx (ix2 r d)
      ((contrEquiv1 dot_S256x2048_S2048x64_S256x64_1_0_0_1_n_n 2048 rfl rfl).symm k) = ix2 k d := funext fun a => Fin.ext (by
    match a with
    | ⟨0, _⟩ => exact (rhs2_0 _ _).trans hk
    | ⟨1, _⟩ => exact rhs2_1 _ _)
  rw [el, er]
  rfl

/-- The masked scores of a slab at (r, j) are the row specification's, for query row r of the slab, the key rows, and
    the row's mask bits (a mask word that is not zero). -/
theorem maskedScores_apply (kb : FVec Ideal S2048x64 .bf16) (qs : Vec Ideal S1x256x64 .f32) (ms : Vec Ideal S1x256x2048 .i32)
    (r : Fin 256) (j : Fin 2048) :
    maskedScores kb qs ms (ix2 r j)
      = rowMasked (fun d => qs (ix3 (0 : Fin 1) r d)) (fun j' d => kb (ix2 j' d))
          (fun j' => IntOp.cmpi .ne (ms (ix3 (0 : Fin 1) r j')) 0#32) j := by
  show Scalar.select (IntOp.cmpi .ne (shapeCast S256x2048 ms shapeCasts_S1x256x2048_S256x2048 (ix2 r j)) 0#32) fill
      (matmul dot_S256x64_S2048x64_S256x2048_1_1_0_0_n_n none
        (truncf .bf16 (shapeCast S256x64 qs shapeCasts_S1x256x64_S256x64 : FVec Ideal S256x64 .f32) bitsLt_bf16_f32) kb
        (constant (F := Ideal) S256x2048 .f32 0x00000000#32) (ix2 r j) * half) = _
  rw [shapeCast_1ab_ab_apply, scores_apply]
  rfl

/-- A slab's attention weights at (r, j): the row specification. -/
theorem pay1_apply (kb : FVec Ideal S2048x64 .bf16) (qs : Vec Ideal S1x256x64 .f32) (ms : Vec Ideal S1x256x2048 .i32)
    (r : Fin 256) (j : Fin 2048) :
    k0_pay1 kb qs ms (ix2 r j)
      = rowAttn (fun d => qs (ix3 (0 : Fin 1) r d)) (fun j' d => kb (ix2 j' d))
          (fun j' => IntOp.cmpi .ne (ms (ix3 (0 : Fin 1) r j')) 0#32) j := by
  rw [pay1_eq]
  refine (softmaxRows_apply _ r j).trans ?_
  simp only [maskedScores_apply]
  rfl

/-- The stored weights of a slab (with the unit block axis put back) at (u, r, j). -/
theorem pay2_apply (kb : FVec Ideal S2048x64 .bf16) (qs : Vec Ideal S1x256x64 .f32) (ms : Vec Ideal S1x256x2048 .i32)
    (u : Fin 1) (r : Fin 256) (j : Fin 2048) :
    k0_pay2 kb qs ms (ix3 u r j)
      = rowAttn (fun d => qs (ix3 (0 : Fin 1) r d)) (fun j' d => kb (ix2 j' d))
          (fun j' => IntOp.cmpi .ne (ms (ix3 (0 : Fin 1) r j')) 0#32) j := by
  show shapeCast S1x256x2048 (k0_pay1 kb qs ms) shapeCasts_S256x2048_S1x256x2048 (ix3 u r j) = _
  rw [shapeCast_ab_1ab_apply]
  exact pay1_apply kb qs ms r j

/-- The stored context of a slab at (u, r, d). -/
theorem pay3_apply (kb vb : FVec Ideal S2048x64 .bf16) (qs : Vec Ideal S1x256x64 .f32) (ms : Vec Ideal S1x256x2048 .i32)
    (u : Fin 1) (r : Fin 256) (d : Fin 64) :
    k0_pay3 kb vb qs ms (ix3 u r d)
      = rowCtx (fun d' => qs (ix3 (0 : Fin 1) r d')) (fun j d' => kb (ix2 j d')) (fun j d' => vb (ix2 j d'))
          (fun j => IntOp.cmpi .ne (ms (ix3 (0 : Fin 1) r j)) 0#32) d := by
  show shapeCast S1x256x64 (matmul dot_S256x2048_S2048x64_S256x64_1_0_0_1_n_n none
      (truncf .bf16 (k0_pay1 kb qs ms) bitsLt_bf16_f32) vb (constant (F := Ideal) S256x64 .f32 0x00000000#32))
      shapeCasts_S256x64_S1x256x64 (ix3 u r d) = _
  rw [shapeCast_ab_1ab_apply]
  refine (weighted_apply _ vb r d).trans ?_
  simp only [pay1_apply]
  rfl

/-- The key (or value) rows as the body holds them: the loaded block with its unit axis dropped. -/
theorem pay4_apply (v0 : Vec Ideal S1x2048x64 .f32) (j : Fin 2048) (d : Fin 64) :
    k0_pay4 v0 (ix2 j d) = v0 (ix3 (0 : Fin 1) j d) := by
  show shapeCast S2048x64 v0 shapeCasts_S1x2048x64_S2048x64 (ix2 j d) = _
  rw [shapeCast_1ab_ab_apply]
theorem pay5_apply (v3 : Vec Ideal S1x2048x64 .f32) (j : Fin 2048) (d : Fin 64) :
    k0_pay5 v3 (ix2 j d) = v3 (ix3 (0 : Fin 1) j d) := by
  show shapeCast S2048x64 v3 shapeCasts_S1x2048x64_S2048x64 (ix2 j d) = _
  rw [shapeCast_1ab_ab_apply]

end Cert.KernelIdeal.Slab

end
-- ==== Proof.Block.lean ====
/-
  What the kernel body leaves in its two output blocks, read at an index over the extended reals.
  At a grid point the body sees a block of 1024 query rows (x0), all 2048 key rows (x1) and value rows (x2) of one
  (batch, head) pair, and the matching 1024 rows of the mask (x3). It writes each output block as four slabs of 256
  rows, slab s covering rows 256·s … 256·s + 255, each computed from rows 256·s … of x0 and x3 and from all of x1, x2.
  Row R of the block therefore holds the per-row specification for query row R: the four stores are pieces of ONE
  function of the block index, so the buffer they fill together reads as that function at every index.
-/
import proofs.«168028_j42829413876092_2_alg».proof.Proof.Gen.KernelIdeal.Frame
import proofs.«168028_j42829413876092_2_alg».proof.Proof.Slab
import Idealize.ShloMosaic.Lib.Pipeline.Value
import Idealize.ShloMosaic.Lib.Tactic

set_option maxRecDepth 16384

noncomputable section

namespace Cert.KernelIdeal.Block

open Cert.KernelIdeal Cert.KernelIdeal.Gen Idealize.ShloMosaic Idealize.ShloMosaic.TcCoe Idealize.ShloMosaic.Tactic
open Idealize.ShloMosaic.ValueIdx Idealize.SL.Sem Cert.Attention

/-- The attention weights of query row R of a block against key j, from the block's inputs. -/
def blockAttn (x0 : Vec Ideal S1x1024x64 .f32) (x1 : Vec Ideal S1x2048x64 .f32) (x3 : Vec Ideal S1x1024x2048 .i32)
    (R : Fin 1024) (j : Fin 2048) : EReal :=
  rowAttn (fun d => x0 (ix3 (0 : Fin 1) R d)) (fun j' d => x1 (ix3 (0 : Fin 1) j' d))
    (fun j' => IntOp.cmpi .ne (x3 (ix3 (0 : Fin 1) R j')) 0#32) j

/-- The context of query row R of a block at feature d. -/
def blockCtx (x0 : Vec Ideal S1x1024x64 .f32) (x1 x2 : Vec Ideal S1x2048x64 .f32) (x3 : Vec Ideal S1x1024x2048 .i32)
    (R : Fin 1024) (d : Fin 64) : EReal :=
  rowCtx (fun d' => x0 (ix3 (0 : Fin 1) R d')) (fun j d' => x1 (ix3 (0 : Fin 1) j d')) (fun j d' => x2 (ix3 (0 : Fin 1) j d'))
    (fun j => IntOp.cmpi .ne (x3 (ix3 (0 : Fin 1) R j)) 0#32) d

/-- Both as functions of the block index. -/
def attnBlock (x0 : Vec Ideal S1x1024x64 .f32) (x1 : Vec Ideal S1x2048x64 .f32) (x3 : Vec Ideal S1x1024x2048 .i32) :
    Vec Ideal S1x1024x2048 .f32 := fun y => blockAttn x0 x1 x3 (y 1) (y 2)
def ctxBlock (x0 : Vec Ideal S1x1024x64 .f32) (x1 x2 : Vec Ideal S1x2048x64 .f32) (x3 : Vec Ideal S1x1024x2048 .i32) :
    Vec Ideal S1x1024x64 .f32 := fun y => blockCtx x0 x1 x2 x3 (y 1) (y 2)

theorem blockAttn_congr (x0 : Vec Ideal S1x1024x64 .f32) (x1 : Vec Ideal S1x2048x64 .f32) (x3 : Vec Ideal S1x1024x2048 .i32)
    {R R' : Fin 1024} {l l' : Fin 2048} (hR : R.val = R'.val) (hl : l.val = l'.val) :
    blockAttn x0 x1 x3 R l = blockAttn x0 x1 x3 R' l' := by
  obtain rfl := Fin.ext hR; obtain rfl := Fin.ext hl; rfl

theorem blockCtx_congr (x0 : Vec Ideal S1x1024x64 .f32) (x1 x2 : Vec Ideal S1x2048x64 .f32) (x3 : Vec Ideal S1x1024x2048 .i32)
    {R R' : Fin 1024} {l l' : Fin 64} (hR : R.val = R'.val) (hl : l.val = l'.val) :
    blockCtx x0 x1 x2 x3 R l = blockCtx x0 x1 x2 x3 R' l' := by
  obtain rfl := Fin.ext hR; obtain rfl := Fin.ext hl; rfl

theorem hz3 : (![0, 0, 0] : Fin 3 → Nat) = fun _ => 0 := funext fun a => by fin_cases a <;> rfl

/-- A load of 256 rows starting at row o of a block of 1024 rows reads, at row r of the slab, row o + r of the block. -/
theorem ld_rows {Val : EltTy → Type} {e : EltTy} {w : Nat} (X : (⟨3, ![1, 1024, w]⟩ : Shape).Idx → Val e) (o : Nat)
    (inb : ∀ a, (![0, o, 0] : Fin 3 → Nat) a + (![1, 256, w] : Fin 3 → Nat) a ≤ (⟨3, ![1, 1024, w]⟩ : Shape).size a)
    (u : Fin 1) (r : Fin 256) (l : Fin w) (R : Fin 1024) (hR : R.val = o + r.val) :
    View.ld (Val := Val) X (Rect.unit (s := ⟨3, ![1, 1024, w]⟩) ![0, o, 0] ![1, 256, w] inb) (ix3 u r l) = X (ix3 (0 : Fin 1) R l) := by
  show X ((Rect.unit (s := ⟨3, ![1, 1024, w]⟩) ![0, o, 0] ![1, 256, w] inb).idx (ix3 u r l)) = _
  refine congrArg X (funext fun a => Fin.ext ?_)
  match a with
  | ⟨0, _⟩ => show 0 + 1 * u.val = 0; omega
  | ⟨1, _⟩ => show o + 1 * r.val = R.val; omega
  | ⟨2, _⟩ => show 0 + 1 * l.val = l.val; omega

/-- The slab of attention weights stored at row offset o is the block's function under its rectangle. -/
theorem attn_piece (x0 : Vec Ideal S1x1024x64 .f32) (x1 : Vec Ideal S1x2048x64 .f32) (x3 : Vec Ideal S1x1024x2048 .i32) (o : Nat)
    (inbk : ∀ a, (![0, 0, 0] : Fin 3 → Nat) a + S1x2048x64.size a ≤ S1x2048x64.size a)
    (inbq : ∀ a, (![0, o, 0] : Fin 3 → Nat) a + (![1, 256, 64] : Fin 3 → Nat) a ≤ S1x1024x64.size a)
    (inbm : ∀ a, (![0, o, 0] : Fin 3 → Nat) a + (![1, 256, 2048] : Fin 3 → Nat) a ≤ S1x1024x2048.size a)
    (x : (Rect.unit (s := S1x1024x2048) ![0, o, 0] ![1, 256, 2048] inbm).shape.Idx) :
    k0_pay2 (k0_pay4 (View.ld x1 (Rect.unit (s := S1x2048x64) ![0, 0, 0] S1x2048x64.size inbk)))
        (View.ld x0 (Rect.unit (s := S1x1024x64) ![0, o, 0] ![1, 256, 64] inbq))
        (View.ld x3 (Rect.unit (s := S1x1024x2048) ![0, o, 0] ![1, 256, 2048] inbm)) x
      = attnBlock x0 x1 x3 ((Rect.unit (s := S1x1024x2048) ![0, o, 0] ![1, 256, 2048] inbm).emb x) := by
  obtain ⟨u, r, l, rfl⟩ : ∃ (u : Fin 1) (r : Fin 256) (l : Fin 2048), x = ix3 u r l := ⟨x 0, x 1, x 2, eq_ix3 x⟩
  refine (Slab.pay2_apply _ _ _ u r l).trans ?_
  have ho : o + 256 ≤ 1024 := inbm 1
  have hrow : o + r.val < 1024 := by have := r.isLt; omega
  refine Eq.trans ?_ (blockAttn_congr x0 x1 x3 (R := ⟨o + r.val, hrow⟩) (l := l) ?_ ?_)
  · unfold blockAttn
    have e1 : (fun d => View.ld x0 (Rect.unit (s := S1x1024x64) ![0, o, 0] ![1, 256, 64] inbq) (ix3 (0 : Fin 1) r d))
        = fun d => x0 (ix3 (0 : Fin 1) (⟨o + r.val, hrow⟩ : Fin 1024) d) :=
      funext fun d => ld_rows x0 o inbq 0 r d _ rfl
    have e2 : (fun (j' : Fin 2048) (d : Fin 64) => k0_pay4 (View.ld x1 (Rect.unit (s := S1x2048x64) ![0, 0, 0] S1x2048x64.size inbk)) (ix2 j' d))
        = fun j' d => x1 (ix3 (0 : Fin 1) j' d) :=
      funext fun j' => funext fun d => (Slab.pay4_apply _ j' d).trans (congrFun (View.ld_unit_zero hz3 inbk x1) _)
    have e3 : (fun j' => IntOp.cmpi .ne (View.ld x3 (Rect.unit (s := S1x1024x2048) ![0, o, 0] ![1, 256, 2048] inbm) (ix3 (0 : Fin 1) r j')) 0#32)
        = fun j' => IntOp.cmpi .ne (x3 (ix3 (0 : Fin 1) (⟨o + r.val, hrow⟩ : Fin 1024) j')) 0#32 :=
      funext fun j' => congrArg (fun w => IntOp.cmpi .ne w 0#32) (ld_rows x3 o inbm 0 r j' _ rfl)
    rw [e1, e2, e3]
  · show o + r.val = o + 1 * r.val; omega
  · show l.val = 0 + 1 * l.val; omega

/-- The slab of context rows stored at row offset o is the block's function under its rectangle. -/
theorem ctx_piece (x0 : Vec Ideal S1x1024x64 .f32) (x1 x2 : Vec Ideal S1x2048x64 .f32) (x3 : Vec Ideal S1x1024x2048 .i32) (o : Nat)
    (inbk : ∀ a, (![0, 0, 0] : Fin 3 → Nat) a + S1x2048x64.size a ≤ S1x2048x64.size a)
    (inbq : ∀ a, (![0, o, 0] : Fin 3 → Nat) a + (![1, 256, 64] : Fin 3 → Nat) a ≤ S1x1024x64.size a)
    (inbm : ∀ a, (![0, o, 0] : Fin 3 → Nat) a + (![1, 256, 2048] : Fin 3 → Nat) a ≤ S1x1024x2048.size a)
    (x : (Rect.unit (s := S1x1024x64) ![0, o, 0] ![1, 256, 64] inbq).shape.Idx) :
    k0_pay3 (k0_pay4 (View.ld x1 (Rect.unit (s := S1x2048x64) ![0, 0, 0] S1x2048x64.size inbk)))
        (k0_pay5 (View.ld x2 (Rect.unit (s := S1x2048x64) ![0, 0, 0] S1x2048x64.size inbk)))
        (View.ld x0 (Rect.unit (s := S1x1024x64) ![0, o, 0] ![1, 256, 64] inbq))
        (View.ld x3 (Rect.unit (s := S1x1024x2048) ![0, o, 0] ![1, 256, 2048] inbm)) x
      = ctxBlock x0 x1 x2 x3 ((Rect.unit (s := S1x1024x64) ![0, o, 0] ![1, 256, 64] inbq).emb x) := by
  obtain ⟨u, r, l, rfl⟩ : ∃ (u : Fin 1) (r : Fin 256) (l : Fin 64), x = ix3 u r l := ⟨x 0, x 1, x 2, eq_ix3 x⟩
  refine (Slab.pay3_apply _ _ _ _ u r l).trans ?_
  have ho : o + 256 ≤ 1024 := inbq 1
  have hrow : o + r.val < 1024 := by have := r.isLt; omega
  refine Eq.trans ?_ (blockCtx_congr x0 x1 x2 x3 (R := ⟨o + r.val, hrow⟩) (l := l) ?_ ?_)
  · unfold blockCtx
    have e1 : (fun d => View.ld x0 (Rect.unit (s := S1x1024x64) ![0, o, 0] ![1, 256, 64] inbq) (ix3 (0 : Fin 1) r d))
        = fun d => x0 (ix3 (0 : Fin 1) (⟨o + r.val, hrow⟩ : Fin 1024) d) :=
      funext fun d => ld_rows x0 o inbq 0 r d _ rfl
    have e2 : (fun (j' : Fin 2048) (d : Fin 64) => k0_pay4 (View.ld x1 (Rect.unit (s := S1x2048x64) ![0, 0, 0] S1x2048x64.size inbk)) (ix2 j' d))
        = fun j' d => x1 (ix3 (0 : Fin 1) j' d) :=
      funext fun j' => funext fun d => (Slab.pay4_apply _ j' d).trans (congrFun (View.ld_unit_zero hz3 inbk x1) _)
    have e2' : (fun (j' : Fin 2048) (d : Fin 64) => k0_pay5 (View.ld x2 (Rect.unit (s := S1x2048x64) ![0, 0, 0] S1x2048x64.size inbk)) (ix2 j' d))
        = fun j' d => x2 (ix3 (0 : Fin 1) j' d) :=
      funext fun j' => funext fun d => (Slab.pay5_apply _ j' d).trans (congrFun (View.ld_unit_zero hz3 inbk x2) _)
    have e3 : (fun j' => IntOp.cmpi .ne (View.ld x3 (Rect.unit (s := S1x1024x2048) ![0, o, 0] ![1, 256, 2048] inbm) (ix3 (0 : Fin 1) r j')) 0#32)
        = fun j' => IntOp.cmpi .ne (x3 (ix3 (0 : Fin 1) (⟨o + r.val, hrow⟩ : Fin 1024) j')) 0#32 :=
      funext fun j' => congrArg (fun w => IntOp.cmpi .ne w 0#32) (ld_rows x3 o inbm 0 r j' _ rfl)
    rw [e1, e2, e2', e3]
  · show o + r.val = o + 1 * r.val; omega
  · show l.val = 0 + 1 * l.val; omega

/-- After the body, the attention block holds blockAttn at every (row, key). -/
theorem out5_apply (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x2048 .i32) (harg5 : arg5.IsWhole) (arg6 : Memref sig .tc .vmem S1x1024x64 .f32) (harg6 : arg6.IsWhole) (arg7 : Memref sig .tc .vmem S1x1024x2048 .f32) (harg7 : arg7.IsWhole)
    (x0 : Vec Ideal S1x1024x64 .f32) (x1 : Vec Ideal S1x2048x64 .f32) (x2 : Vec Ideal S1x2048x64 .f32) (x3 : Vec Ideal S1x1024x2048 .i32)
    (u : Fin 1) (R : Fin 1024) (j : Fin 2048) :
    out0_A_5 (F := Ideal) c i arg2 harg2 arg3 harg3 arg4 harg4 arg5 harg5 arg6 harg6 arg7 harg7 x0 x1 x2 x3 (ix3 u R j) = blockAttn x0 x1 x3 R j := by
  have hcov := cover0_A_5 (F := Ideal) c i arg2 harg2 arg3 harg3 arg4 harg4 arg5 harg5 arg6 harg6 arg7 harg7 x0 x1 x2 x3 (ix3 u R j)
  unfold out0_A_5
  rw [View.read_writes_eq_canon _ _ _ (cover0_A_5 c i arg2 harg2 arg3 harg3 arg4 harg4 arg5 harg5 arg6 harg6 arg7 harg7 x0 x1 x2 x3)]
  refine View.canon_apply_of_pieces (attnBlock x0 x1 x3) _ ?_ (ix3 u R j) hcov
  unfold kernelRun0_A
  dsimp only
  sl_unfold_words
  simp only [View.readAt_eq_ld, harg2.read_unread, harg3.read_unread, harg4.read_unread, harg5.read_unread]
  intro p hp x
  simp only [List.mem_cons, List.mem_nil_iff, or_false] at hp
  rcases hp with rfl | rfl | rfl | rfl
  · exact attn_piece x0 x1 x3 768 _ _ _ x
  · exact attn_piece x0 x1 x3 512 _ _ _ x
  · exact attn_piece x0 x1 x3 256 _ _ _ x
  · exact attn_piece x0 x1 x3 0 _ _ _ x

/-- After the body, the context block holds blockCtx at every (row, feature). -/
theorem out4_apply (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x2048 .i32) (harg5 : arg5.IsWhole) (arg6 : Memref sig .tc .vmem S1x1024x64 .f32) (harg6 : arg6.IsWhole) (arg7 : Memref sig .tc .vmem S1x1024x2048 .f32) (harg7 : arg7.IsWhole)
    (x0 : Vec Ideal S1x1024x64 .f32) (x1 : Vec Ideal S1x2048x64 .f32) (x2 : Vec Ideal S1x2048x64 .f32) (x3 : Vec Ideal S1x1024x2048 .i32)
    (u : Fin 1) (R : Fin 1024) (d : Fin 64) :
    out0_A_4 (F := Ideal) c i arg2 harg2 arg3 harg3 arg4 harg4 arg5 harg5 arg6 harg6 arg7 harg7 x0 x1 x2 x3 (ix3 u R d) = blockCtx x0 x1 x2 x3 R d := by
  have hcov := cover0_A_4 (F := Ideal) c i arg2 harg2 arg3 harg3 arg4 harg4 arg5 harg5 arg6 harg6 arg7 harg7 x0 x1 x2 x3 (ix3 u R d)
  unfold out0_A_4
  rw [View.read_writes_eq_canon _ _ _ (cover0_A_4 c i arg2 harg2 arg3 harg3 arg4 harg4 arg5 harg5 arg6 harg6 arg7 harg7 x0 x1 x2 x3)]
  refine View.canon_apply_of_pieces (ctxBlock x0 x1 x2 x3) _ ?_ (ix3 u R d) hcov
  unfold kernelRun0_A
  dsimp only
  sl_unfold_words
  simp only [View.readAt_eq_ld, harg2.read_unread, harg3.read_unread, harg4.read_unread, harg5.read_unread]
  intro p hp x
  simp only [List.mem_cons, List.mem_nil_iff, or_false] at hp
  rcases hp with rfl | rfl | rfl | rfl
  · exact ctx_piece x0 x1 x2 x3 768 _ _ _ x
  · exact ctx_piece x0 x1 x2 x3 512 _ _ _ x
  · exact ctx_piece x0 x1 x2 x3 256 _ _ _ x
  · exact ctx_piece x0 x1 x2 x3 0 _ _ _ x

end Cert.KernelIdeal.Block

end
-- ==== Proof.Grid.lean ====
/-
  The launch grid and the windows' index maps, decided once over the 48 grid points.
  The grid is 24 (batch, head) pairs by 2 halves of the 2048 query rows. At a point the query, mask and both output
  windows sit at block (pair, half, 0) of their arrays; the key and value windows at block (pair, 0, 0): every point of
  one pair sees all the keys and values of that pair. Every (pair, half) is some point's.
-/
import proofs.«168028_j42829413876092_2_alg».proof.Proof.Gen.KernelIdeal.Frame

noncomputable section

namespace Cert.KernelIdeal.Grid

open Cert.KernelIdeal Cert.KernelIdeal.Gen Idealize.ShloMosaic Idealize.SL.Sem

/-- Where each window's block sits at point t, relative to the attention output's block (window 5). -/
theorem idx_facts : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3) ∧ win0_3.index t (2 : Fin 3) = 0
    ∧ win0_4.index t (0 : Fin 3) = win0_5.index t (0 : Fin 3) ∧ win0_4.index t (1 : Fin 3) = win0_5.index t (1 : Fin 3) ∧ win0_4.index t (2 : Fin 3) = 0
    ∧ win0_5.index t (2 : Fin 3) = 0 ∧ win0_5.index t (0 : Fin 3) ≤ 23 ∧ win0_5.index t (1 : Fin 3) ≤ 1 :=
  (by decide +kernel : ∀ t : Fin grid0.N, _)

/-- Every (pair, half) is some point's block position, for both output windows. -/
theorem idx_onto5 : ∀ (q0 : Fin 24) (q1 : Fin 2), ∃ t : Fin cfg0.N, win0_5.index t = ![q0.val, q1.val, 0] :=
  (by decide +kernel : ∀ (q0 : Fin 24) (q1 : Fin 2), ∃ t : Fin grid0.N, win0_5.index t = ![q0.val, q1.val, 0])
theorem idx_onto4 : ∀ (q0 : Fin 24) (q1 : Fin 2), ∃ t : Fin cfg0.N, win0_4.index t = ![q0.val, q1.val, 0] :=
  (by decide +kernel : ∀ (q0 : Fin 24) (q1 : Fin 2), ∃ t : Fin grid0.N, win0_4.index t = ![q0.val, q1.val, 0])

end Cert.KernelIdeal.Grid

end
-- ==== Proof.Flush.lean ====
/-
  What each grid point writes back, as a block of ONE function of the arrays the region finds.
  The region's input arrays are q, k, v with the (batch, head) axes merged, of shape [24, 2048, 64], and the mask as
  32-bit words, of shape [24, 2048, 2048]. Row i of pair g of the attention output is the per-row specification for
  query row (g, i), all key rows of pair g and mask row (g, i); the context output likewise with the value rows of
  pair g. The point at (pair g, half s) sees rows 1024·s … of pair g of q and of the mask and all of pair g's keys and
  values, so what its body leaves (the block functions of the body) is rows 1024·s … of pair g of these two arrays.
-/
import proofs.«168028_j42829413876092_2_alg».proof.Proof.Gen.KernelIdeal.Frame
import proofs.«168028_j42829413876092_2_alg».proof.Proof.Block
import proofs.«168028_j42829413876092_2_alg».proof.Proof.Grid
import Idealize.ShloMosaic.Lib.Pipeline.Value

set_option maxRecDepth 16384

noncomputable section

namespace Cert.KernelIdeal.Flush

open Cert.KernelIdeal Cert.KernelIdeal.Gen Idealize.ShloMosaic Idealize.ShloMosaic.TcCoe
open Idealize.ShloMosaic.ValueIdx Idealize.SL.Sem Cert.Attention
open Idealize.ShloMosaic.Pipeline (Dat)

/-- The attention weights at (pair g, query i, key j) from the merged arrays. -/
def arrAttn (q3 k3 : S24x2048x64.Idx → EReal) (m3 : S24x2048x2048.Idx → BitVec 32) (g : Fin 24) (i j : Fin 2048) : EReal :=
  rowAttn (fun d => q3 (ix3 g i d)) (fun j' d => k3 (ix3 g j' d)) (fun j' => IntOp.cmpi .ne (m3 (ix3 g i j')) 0#32) j

/-- The context at (pair g, query i, feature d) from the merged arrays. -/
def arrCtx (q3 k3 v3 : S24x2048x64.Idx → EReal) (m3 : S24x2048x2048.Idx → BitVec 32) (g : Fin 24) (i : Fin 2048) (d : Fin 64) : EReal :=
  rowCtx (fun d' => q3 (ix3 g i d')) (fun j d' => k3 (ix3 g j d')) (fun j d' => v3 (ix3 g j d'))
    (fun j => IntOp.cmpi .ne (m3 (ix3 g i j)) 0#32) d

/-- Both as whole arrays. -/
def attnArr (q3 k3 : S24x2048x64.Idx → EReal) (m3 : S24x2048x2048.Idx → BitVec 32) : S24x2048x2048.Idx → EReal :=
  fun y => arrAttn q3 k3 m3 (y 0) (y 1) (y 2)
def ctxArr (q3 k3 v3 : S24x2048x64.Idx → EReal) (m3 : S24x2048x2048.Idx → BitVec 32) : S24x2048x64.Idx → EReal :=
  fun y => arrCtx q3 k3 v3 m3 (y 0) (y 1) (y 2)

theorem arrAttn_congr (q3 k3 : S24x2048x64.Idx → EReal) (m3 : S24x2048x2048.Idx → BitVec 32)
    {g g' : Fin 24} {i i' j j' : Fin 2048} (hg : g.val = g'.val) (hi : i.val = i'.val) (hj : j.val = j'.val) :
    arrAttn q3 k3 m3 g i j = arrAttn q3 k3 m3 g' i' j' := by
  obtain rfl := Fin.ext hg; obtain rfl := Fin.ext hi; obtain rfl := Fin.ext hj; rfl

theorem arrCtx_congr (q3 k3 v3 : S24x2048x64.Idx → EReal) (m3 : S24x2048x2048.Idx → BitVec 32)
    {g g' : Fin 24} {i i' : Fin 2048} {d d' : Fin 64} (hg : g.val = g'.val) (hi : i.val = i'.val) (hd : d.val = d'.val) :
    arrCtx q3 k3 v3 m3 g i d = arrCtx q3 k3 v3 m3 g' i' d' := by
  obtain rfl := Fin.ext hg; obtain rfl := Fin.ext hi; obtain rfl := Fin.ext hd; rfl

variable (m : (ℓ : Loc nD τ sig) → Buf (Elt Ideal) ℓ)

/-! ## The input blocks at a point, read off the arrays -/

/-- The query block at point t, row R: row (half · 1024 + R) of the point's pair. -/
theorem iblk0_apply (c : Dev nD) (t : Fin cfg0.N) (R : Fin 1024) (d : Fin 64) (g : Fin 24) (i : Fin 2048)
    (hg : g.val = win0_5.index t (0 : Fin 3)) (hi : i.val = win0_5.index t (1 : Fin 3) * 1024 + R.val) :
    (iblk m c 0 t : Vec Ideal S1x1024x64 .f32) (ix3 (0 : Fin 1) R d) = (V m c main_v0 : S24x2048x64.Idx → EReal) (ix3 g i d) := by
  obtain ⟨e00, e01, e02, -⟩ := Grid.idx_facts t
  show (V m c main_v0 : S24x2048x64.Idx → EReal) (((cfg0.win 0).blk t).view.emb (ix3 (0 : Fin 1) R d)) = _
  refine congrArg (V m c main_v0 : S24x2048x64.Idx → EReal) (funext fun a => Fin.ext ?_)
  match a with
  | ⟨0, _⟩ => show win0_0.index t (0 : Fin 3) * 1 + 1 * 0 = g.val; omega
  | ⟨1, _⟩ => show win0_0.index t (1 : Fin 3) * 1024 + 1 * R.val = i.val; omega
  | ⟨2, _⟩ => show win0_0.index t (2 : Fin 3) * 64 + 1 * d.val = d.val; omega

/-- The key block at point t: all rows of the point's pair. -/
theorem iblk1_apply (c : Dev nD) (t : Fin cfg0.N) (j : Fin 2048) (d : Fin 64) (g : Fin 24)
    (hg : g.val = win0_5.index t (0 : Fin 3)) :
    (iblk m c 1 t : Vec Ideal S1x2048x64 .f32) (ix3 (0 : Fin 1) j d) = (V m c main_v1 : S24x2048x64.Idx → EReal) (ix3 g j d) := by
  obtain ⟨-, -, -, e10, e11, e12, -⟩ := Grid.idx_facts t
  show (V m c main_v1 : S24x2048x64.Idx → EReal) (((cfg0.win 1).blk t).view.emb (ix3 (0 : Fin 1) j d)) = _
  refine congrArg (V m c main_v1 : S24x2048x64.Idx → EReal) (funext fun a => Fin.ext ?_)
  match a with
  | ⟨0, _⟩ => show win0_1.index t (0 : Fin 3) * 1 + 1 * 0 = g.val; omega
  | ⟨1, _⟩ => show win0_1.index t (1 : Fin 3) * 2048 + 1 * j.val = j.val; omega
  | ⟨2, _⟩ => show win0_1.index t (2 : Fin 3) * 64 + 1 * d.val = d.val; omega

/-- The value block at point t: all rows of the point's pair. -/
theorem iblk2_apply (c : Dev nD) (t : Fin cfg0.N) (j : Fin 2048) (d : Fin 64) (g : Fin 24)
    (hg : g.val = win0_5.index t (0 : Fin 3)) :
    (iblk m c 2 t : Vec Ideal S1x2048x64 .f32) (ix3 (0 : Fin 1) j d) = (V m c main_v2 : S24x2048x64.Idx → EReal) (ix3 g j d) := by
  obtain ⟨-, -, -, -, -, -, e20, e21, e22, -⟩ := Grid.idx_facts t
  show (V m c main_v2 : S24x2048x64.Idx → EReal) (((cfg0.win 2).blk t).view.emb (ix3 (0 : Fin 1) j d)) = _
  refine congrArg (V m c main_v2 : S24x2048x64.Idx → EReal) (funext fun a => Fin.ext ?_)
  match a with
  | ⟨0, _⟩ => show win0_2.index t (0 : Fin 3) * 1 + 1 * 0 = g.val; omega
  | ⟨1, _⟩ => show win0_2.index t (1 : Fin 3) * 2048 + 1 * j.val = j.val; omega
  | ⟨2, _⟩ => show win0_2.index t (2 : Fin 3) * 64 + 1 * d.val = d.val; omega

/-- The mask block at point t, row R: row (half · 1024 + R) of the point's pair. -/
theorem iblk3_apply (c : Dev nD) (t : Fin cfg0.N) (R : Fin 1024) (j : Fin 2048) (g : Fin 24) (i : Fin 2048)
    (hg : g.val = win0_5.index t (0 : Fin 3)) (hi : i.val = win0_5.index t (1 : Fin 3) * 1024 + R.val) :
    (iblk m c 3 t : Vec Ideal S1x1024x2048 .i32) (ix3 (0 : Fin 1) R j) = (V m c main_v4 : S24x2048x2048.Idx → BitVec 32) (ix3 g i j) := by
  obtain ⟨-, -, -, -, -, -, -, -, -, e30, e31, e32, -⟩ := Grid.idx_facts t
  show (V m c main_v4 : S24x2048x2048.Idx → BitVec 32) (((cfg0.win 3).blk t).view.emb (ix3 (0 : Fin 1) R j)) = _
  refine congrArg (V m c main_v4 : S24x2048x2048.Idx → BitVec 32) (funext fun a => Fin.ext ?_)
  match a with
  | ⟨0, _⟩ => show win0_3.index t (0 : Fin 3) * 1 + 1 * 0 = g.val; omega
  | ⟨1, _⟩ => show win0_3.index t (1 : Fin 3) * 1024 + 1 * R.val = i.val; omega
  | ⟨2, _⟩ => show win0_3.index t (2 : Fin 3) * 2048 + 1 * j.val = j.val; omega

/-! ## What a point writes back -/

/-- A block whose every entry is the array function under the point's rectangle is that point's block of the function
    (both windows' blocks lie inside their arrays, so the write-back moves the whole block). -/
theorem flushed_of_block5 (t : Fin cfg0.N) (X : Vec Ideal S1x1024x2048 .f32) (G : S24x2048x2048.Idx → EReal)
    (h : ∀ (u : Fin 1) (R : Fin 1024) (j : Fin 2048), X (ix3 u R j) = G (((cfg0.win 5).blk t).view.emb (ix3 u R j))) :
    (cfg0.win 5).cut (grid0.coords t) X = ((cfg0.win 5).blk t).view.read (Elt Ideal) G := by
  funext y
  obtain ⟨u, R, j, rfl⟩ : ∃ (u : Fin 1) (R : Fin 1024) (j : Fin 2048), y = ix3 u R j := ⟨y 0, y 1, y 2, eq_ix3 y⟩
  exact h u R j

theorem flushed_of_block4 (t : Fin cfg0.N) (X : Vec Ideal S1x1024x64 .f32) (G : S24x2048x64.Idx → EReal)
    (h : ∀ (u : Fin 1) (R : Fin 1024) (d : Fin 64), X (ix3 u R d) = G (((cfg0.win 4).blk t).view.emb (ix3 u R d))) :
    (cfg0.win 4).cut (grid0.coords t) X = ((cfg0.win 4).blk t).view.read (Elt Ideal) G := by
  funext y
  obtain ⟨u, R, d, rfl⟩ : ∃ (u : Fin 1) (R : Fin 1024) (d : Fin 64), y = ix3 u R d := ⟨y 0, y 1, y 2, eq_ix3 y⟩
  exact h u R d

/-- Row R of the attention block of point t is row (half · 1024 + R) of the point's pair of attnArr. -/
theorem blockAttn_eq (c : Dev nD) (t : Fin cfg0.N) (u : Fin 1) (R : Fin 1024) (j : Fin 2048) :
    Block.blockAttn (iblk m c 0 t) (iblk m c 1 t) (iblk m c 3 t) R j
      = attnArr (V m c main_v0) (V m c main_v1) (V m c main_v4) (((cfg0.win 5).blk t).view.emb (ix3 u R j)) := by
  obtain ⟨-, -, -, -, -, -, -, -, -, -, -, -, -, -, -, e52, e50, e51⟩ := Grid.idx_facts t
  have hgl : win0_5.index t (0 : Fin 3) < 24 := by omega
  have hil : win0_5.index t (1 : Fin 3) * 1024 + R.val < 2048 := by have := R.isLt; omega
  refine Eq.trans ?_ (arrAttn_congr (V m c main_v0) (V m c main_v1) (V m c main_v4)
    (g := ⟨win0_5.index t (0 : Fin 3), hgl⟩) (i := ⟨win0_5.index t (1 : Fin 3) * 1024 + R.val, hil⟩) (j := j) ?_ ?_ ?_)
  · unfold Block.blockAttn arrAttn
    have e1 : (fun d => (iblk m c 0 t : Vec Ideal S1x1024x64 .f32) (ix3 (0 : Fin 1) R d))
        = fun d => (V m c main_v0 : S24x2048x64.Idx → EReal) (ix3 (⟨win0_5.index t (0 : Fin 3), hgl⟩ : Fin 24) (⟨win0_5.index t (1 : Fin 3) * 1024 + R.val, hil⟩ : Fin 2048) d) :=
      funext fun d => iblk0_apply m c t R d _ _ rfl rfl
    have e2 : (fun (j' : Fin 2048) (d : Fin 64) => (iblk m c 1 t : Vec Ideal S1x2048x64 .f32) (ix3 (0 : Fin 1) j' d))
        = fun j' d => (V m c main_v1 : S24x2048x64.Idx → EReal) (ix3 (⟨win0_5.index t (0 : Fin 3), hgl⟩ : Fin 24) j' d) :=
      funext fun j' => funext fun d => iblk1_apply m c t j' d _ rfl
    have e3 : (fun j' => IntOp.cmpi .ne ((iblk m c 3 t : Vec Ideal S1x1024x2048 .i32) (ix3 (0 : Fin 1) R j')) 0#32)
        = fun j' => IntOp.cmpi .ne ((V m c main_v4 : S24x2048x2048.Idx → BitVec 32) (ix3 (⟨win0_5.index t (0 : Fin 3), hgl⟩ : Fin 24) (⟨win0_5.index t (1 : Fin 3) * 1024 + R.val, hil⟩ : Fin 2048) j')) 0#32 :=
      funext fun j' => congrArg (fun w => IntOp.cmpi .ne w 0#32) (iblk3_apply m c t R j' _ _ rfl rfl)
    rw [e1, e2, e3]
  · show win0_5.index t (0 : Fin 3) = win0_5.index t (0 : Fin 3) * 1 + 1 * u.val; omega
  · show win0_5.index t (1 : Fin 3) * 1024 + R.val = win0_5.index t (1 : Fin 3) * 1024 + 1 * R.val; omega
  · show j.val = win0_5.index t (2 : Fin 3) * 2048 + 1 * j.val; omega

/-- Row R of the context block of point t is row (half · 1024 + R) of the point's pair of ctxArr. -/
theorem blockCtx_eq (c : Dev nD) (t : Fin cfg0.N) (u : Fin 1) (R : Fin 1024) (d : Fin 64) :
    Block.blockCtx (iblk m c 0 t) (iblk m c 1 t) (iblk m c 2 t) (iblk m c 3 t) R d
      = ctxArr (V m c main_v0) (V m c main_v1) (V m c main_v2) (V m c main_v4) (((cfg0.win 4).blk t).view.emb (ix3 u R d)) := by
  obtain ⟨-, -, -, -, -, -, -, -, -, -, -, -, e40, e41, e42, e52, e50, e51⟩ := Grid.idx_facts t
  have hgl : win0_5.index t (0 : Fin 3) < 24 := by omega
  have hil : win0_5.index t (1 : Fin 3) * 1024 + R.val < 2048 := by have := R.isLt; omega
  refine Eq.trans ?_ (arrCtx_congr (V m c main_v0) (V m c main_v1) (V m c main_v2) (V m c main_v4)
    (g := ⟨win0_5.index t (0 : Fin 3), hgl⟩) (i := ⟨win0_5.index t (1 : Fin 3) * 1024 + R.val, hil⟩) (d := d) ?_ ?_ ?_)
  · unfold Block.blockCtx arrCtx
    have e1 : (fun d' => (iblk m c 0 t : Vec Ideal S1x1024x64 .f32) (ix3 (0 : Fin 1) R d'))
        = fun d' => (V m c main_v0 : S24x2048x64.Idx → EReal) (ix3 (⟨win0_5.index t (0 : Fin 3), hgl⟩ : Fin 24) (⟨win0_5.index t (1 : Fin 3) * 1024 + R.val, hil⟩ : Fin 2048) d') :=
      funext fun d' => iblk0_apply m c t R d' _ _ rfl rfl
    have e2 : (fun (j' : Fin 2048) (d' : Fin 64) => (iblk m c 1 t : Vec Ideal S1x2048x64 .f32) (ix3 (0 : Fin 1) j' d'))
        = fun j' d' => (V m c main_v1 : S24x2048x64.Idx → EReal) (ix3 (⟨win0_5.index t (0 : Fin 3), hgl⟩ : Fin 24) j' d') :=
      funext fun j' => funext fun d' => iblk1_apply m c t j' d' _ rfl
    have e2' : (fun (j' : Fin 2048) (d' : Fin 64) => (iblk m c 2 t : Vec Ideal S1x2048x64 .f32) (ix3 (0 : Fin 1) j' d'))
        = fun j' d' => (V m c main_v2 : S24x2048x64.Idx → EReal) (ix3 (⟨win0_5.index t (0 : Fin 3), hgl⟩ : Fin 24) j' d') :=
      funext fun j' => funext fun d' => iblk2_apply m c t j' d' _ rfl
    have e3 : (fun j' => IntOp.cmpi .ne ((iblk m c 3 t : Vec Ideal S1x1024x2048 .i32) (ix3 (0 : Fin 1) R j')) 0#32)
        = fun j' => IntOp.cmpi .ne ((V m c main_v4 : S24x2048x2048.Idx → BitVec 32) (ix3 (⟨win0_5.index t (0 : Fin 3), hgl⟩ : Fin 24) (⟨win0_5.index t (1 : Fin 3) * 1024 + R.val, hil⟩ : Fin 2048) j')) 0#32 :=
      funext fun j' => congrArg (fun w => IntOp.cmpi .ne w 0#32) (iblk3_apply m c t R j' _ _ rfl rfl)
    rw [e1, e2, e2', e3]
  · show win0_5.index t (0 : Fin 3) = win0_4.index t (0 : Fin 3) * 1 + 1 * u.val; omega
  · show win0_5.index t (1 : Fin 3) * 1024 + R.val = win0_4.index t (1 : Fin 3) * 1024 + 1 * R.val; omega
  · show d.val = win0_4.index t (2 : Fin 3) * 64 + 1 * d.val; omega

/-- The attention block point t writes back is its block of attnArr of the region's input arrays. -/
theorem flushed5_eq (c : Dev nD) (t : Fin cfg0.N) :
    (dats m 0 c).flushed 5 t = ((cfg0.win 5).blk t).view.read (Elt Ideal)
      (attnArr (V m c main_v0) (V m c main_v1) (V m c main_v4)) := by
  show (cfg0.win 5).cut (grid0.coords t) ((dats m 0 c).after 5 t) = _
  rw [after0_5]
  unfold outsAt0
  dsimp only
  refine flushed_of_block5 t _ _ fun u R j => ?_
  exact (Block.out5_apply c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) u R j).trans (blockAttn_eq m c t u R j)

/-- The context block point t writes back is its block of ctxArr of the region's input arrays. -/
theorem flushed4_eq (c : Dev nD) (t : Fin cfg0.N) :
    (dats m 0 c).flushed 4 t = ((cfg0.win 4).blk t).view.read (Elt Ideal)
      (ctxArr (V m c main_v0) (V m c main_v1) (V m c main_v2) (V m c main_v4)) := by
  show (cfg0.win 4).cut (grid0.coords t) ((dats m 0 c).after 4 t) = _
  rw [after0_4]
  unfold outsAt0
  dsimp only
  refine flushed_of_block4 t _ _ fun u R d => ?_
  exact (Block.out4_apply c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) u R d).trans (blockCtx_eq m c t u R d)

end Cert.KernelIdeal.Flush

end
-- ==== Proof.Cover.lean ====
/-
  Every index of each output array lies in some grid point's block.

  The attention output `[24, 2048, 2048]` is written in blocks `[1, 1024, 2048]` and the context output
  `[24, 2048, 64]` in blocks `[1, 1024, 64]`, the block at point `t` sitting at block position (pair, half, 0). An index
  `(g, r, k)` of either array is in the block at position `(g, r / 1024, 0)`: `g * 1 ≤ g < g * 1 + 1`,
  `(r / 1024) * 1024 ≤ r < (r / 1024) * 1024 + 1024`, and the last axis is whole. Every such position is some point's,
  and both windows are written back at every point.
-/
import proofs.«168028_j42829413876092_2_alg».proof.Proof.Gen.KernelIdeal.Frame
import proofs.«168028_j42829413876092_2_alg».proof.Proof.Grid
import Idealize.ShloMosaic.Lib.Pipeline.Value

noncomputable section

namespace Cert.KernelIdeal.Cover

open Cert.KernelIdeal Cert.KernelIdeal.Gen Idealize.ShloMosaic Idealize.ShloMosaic.TcCoe Idealize.SL.Sem

/-! ## Membership in a point's block, coordinate by coordinate -/

/-- An index of the attention output is in point `t`'s block iff each coordinate is in the block's range on its axis. -/
theorem mem_blk5 (t : Fin cfg0.N) (i : S24x2048x2048.Idx) :
    i ∈ ((cfg0.win 5).blk t).view.set ↔ ∀ a : Fin 3, win0_5.index t a * S1x1024x2048.size a ≤ (i a).val ∧ (i a).val < win0_5.index t a * S1x1024x2048.size a + S1x1024x2048.size a := by
  show i ∈ ((View.whole main_v5_1).slice (win0_5.rect t)).set ↔ _
  rw [View.set_slice_whole, Rect.mem_set_unit]
  exact Iff.rfl

/-- An index of the context output is in point `t`'s block iff each coordinate is in the block's range on its axis. -/
theorem mem_blk4 (t : Fin cfg0.N) (i : S24x2048x64.Idx) :
    i ∈ ((cfg0.win 4).blk t).view.set ↔ ∀ a : Fin 3, win0_4.index t a * S1x1024x64.size a ≤ (i a).val ∧ (i a).val < win0_4.index t a * S1x1024x64.size a + S1x1024x64.size a := by
  show i ∈ ((View.whole main_v5_0).slice (win0_4.rect t)).set ↔ _
  rw [View.set_slice_whole, Rect.mem_set_unit]
  exact Iff.rfl

/-! ## Every index is in a block that is written back -/

/-- Every index `(g, r, k)` of the attention output is in the block at position `(g, r / 1024, 0)`, which some point
    writes back. -/
theorem cover5 (i : S24x2048x2048.Idx) :
    ∃ t : Fin cfg0.N, (cfg0.win 5).flush t = true ∧ i ∈ ((cfg0.win 5).blk t).view.set := by
  have h0 : (i 0).val < 24 := (i 0).isLt
  have h1 : (i 1).val < 2048 := (i 1).isLt
  have h2 : (i 2).val < 2048 := (i 2).isLt
  obtain ⟨t, ht⟩ := Grid.idx_onto5 ⟨(i 0).val, h0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 2048 ≤ (i 2).val ∧ (i 2).val < win0_5.index t (2 : Fin 3) * 2048 + 2048; omega

/-- Every index `(g, r, k)` of the context output is in the block at position `(g, r / 1024, 0)`, which some point
    writes back. -/
theorem cover4 (i : S24x2048x64.Idx) :
    ∃ t : Fin cfg0.N, (cfg0.win 4).flush t = true ∧ i ∈ ((cfg0.win 4).blk t).view.set := by
  have h0 : (i 0).val < 24 := (i 0).isLt
  have h1 : (i 1).val < 2048 := (i 1).isLt
  have h2 : (i 2).val < 64 := (i 2).isLt
  obtain ⟨t, ht⟩ := Grid.idx_onto4 ⟨(i 0).val, h0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

end Cert.KernelIdeal.Cover

end
-- ==== Proof.KernelHost.lean ====
/-
  The kernel program's host reshapes, read at an index.

  Before the kernel region the program merges the two leading axes of each argument, `[2, 12, n, k]` to
  `[24, n, k]` (and widens the one-bit mask to 32 bits); after the region it splits the leading axis of each
  result back, `[24, n, k]` to `[2, 12, n, k]`. A reshape keeps the row-major position of every element, and the
  row-major position of `(b, h, i, d)` in `[2, 12, n, k]` is that of `(12 b + h, i, d)` in `[24, n, k]`:
  `((b * 12 + h) * n + i) * k + d`. So each reshaped array at `(12 b + h, i, d)` is the original at `(b, h, i, d)`
  and conversely.
-/
import proofs.«168028_j42829413876092_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.ValueIdx Idealize.SL.Sem

/-! ## Merging and splitting the two leading axes -/

section Reshape
variable {α : Type} {n k : ℕ}

/-- A `[2, 12, n, k]` array cast to `[24, n, k]` reads, at `(12 b + h, i, d)`, the operand at `(b, h, i, d)`. -/
theorem shapeCast_merge_apply (x : (⟨4, ![2, 12, n, k]⟩ : Shape).Idx → α)
    (hc : (⟨4, ![2, 12, n, k]⟩ : Shape).ShapeCasts ⟨3, ![24, n, k]⟩) (b : Fin 2) (h : Fin 12) (i : Fin n) (d : Fin k) :
    shapeCast ⟨3, ![24, n, k]⟩ x hc (ix3 (⟨12 * b.val + h.val, by omega⟩ : Fin 24) i d) = x (ix4 b h i d) :=
  shapeCast_apply x hc _ _ (by
    rw [Shape.rowMajor_val_four, Shape.rowMajor_val_three]
    show ((b.val * 12 + h.val) * n + i.val) * k + d.val = ((12 * b.val + h.val) * n + i.val) * k + d.val
    rw [Nat.mul_comm b.val 12])

/-- A `[24, n, k]` array cast to `[2, 12, n, k]` reads, at `(b, h, i, d)`, the operand at `(12 b + h, i, d)`. -/
theorem shapeCast_split_apply (x : (⟨3, ![24, n, k]⟩ : Shape).Idx → α)
    (hc : (⟨3, ![24, n, k]⟩ : Shape).ShapeCasts ⟨4, ![2, 12, n, k]⟩) (b : Fin 2) (h : Fin 12) (i : Fin n) (d : Fin k) :
    shapeCast ⟨4, ![2, 12, n, k]⟩ x hc (ix4 b h i d) = x (ix3 (⟨12 * b.val + h.val, by omega⟩ : Fin 24) i d) :=
  shapeCast_apply x hc _ _ (by
    rw [Shape.rowMajor_val_four, Shape.rowMajor_val_three]
    show ((12 * b.val + h.val) * n + i.val) * k + d.val = ((b.val * 12 + h.val) * n + i.val) * k + d.val
    rw [Nat.mul_comm b.val 12])

end Reshape

variable {F : FTy → Type} [FloatOps F]
variable (m : (ℓ : Loc nD τ sig) → Buf (Elt F) ℓ)

/-! ## Before the region: what the region finds in its four input arrays -/

/-- The first input array as a whole: the first argument with its two leading axes merged. -/
theorem v0_eq (c : Dev nD) :
    (V m c main_v0 : S24x2048x64.Idx → Elt F .f32)
      = shapeCast S24x2048x64 (m ((c : Thread nD τ).loc main_arg0)) shapeCasts_S2x12x2048x64_S24x2048x64 := by
  show StableHlo.after hostOps0 (fun b => m (c, b)) (Proc.devRef .tc main_v0) = _
  after_results
  rfl

/-- The second input array as a whole: the second argument with its two leading axes merged. -/
theorem v1_eq (c : Dev nD) :
    (V m c main_v1 : S24x2048x64.Idx → Elt F .f32)
      = shapeCast S24x2048x64 (m ((c : Thread nD τ).loc main_arg1)) shapeCasts_S2x12x2048x64_S24x2048x64 := by
  show StableHlo.after hostOps0 (fun b => m (c, b)) (Proc.devRef .tc main_v1) = _
  after_results
  rfl

/-- The third input array as a whole: the third argument with its two leading axes merged. -/
theorem v2_eq (c : Dev nD) :
    (V m c main_v2 : S24x2048x64.Idx → Elt F .f32)
      = shapeCast S24x2048x64 (m ((c : Thread nD τ).loc main_arg2)) shapeCasts_S2x12x2048x64_S24x2048x64 := by
  show StableHlo.after hostOps0 (fun b => m (c, b)) (Proc.devRef .tc main_v2) = _
  after_results
  rfl

/-- The fourth input array as a whole: the one-bit mask with its two leading axes merged, each bit widened to a
    32-bit word. -/
theorem v4_eq (c : Dev nD) :
    (V m c main_v4 : S24x2048x2048.Idx → Elt F .i32)
      = extui 32 (shapeCast S24x2048x2048 (m ((c : Thread nD τ).loc main_arg3)) shapeCasts_S2x12x2048x2048_S24x2048x2048) natLt_1_32 := by
  show StableHlo.after hostOps0 (fun b => m (c, b)) (Proc.devRef .tc main_v4) = _
  after_results
  rfl

variable (c : Dev nD) (b : Fin 2) (h : Fin 12) (i j : Fin 2048) (d : Fin 64)

/-- The first input array at `(12 b + h, i, d)` is the first argument at `(b, h, i, d)`. -/
theorem v0_apply :
    (V m c main_v0 : S24x2048x64.Idx → Elt F .f32) (ix3 (⟨12 * b.val + h.val, by omega⟩ : Fin 24) i d)
      = (m ((c : Thread nD τ).loc main_arg0) : S2x12x2048x64.Idx → Elt F .f32) (ix4 b h i d) := by
  rw [v0_eq]; exact shapeCast_merge_apply _ _ b h i d

/-- The second input array at `(12 b + h, i, d)` is the second argument at `(b, h, i, d)`. -/
theorem v1_apply :
    (V m c main_v1 : S24x2048x64.Idx → Elt F .f32) (ix3 (⟨12 * b.val + h.val, by omega⟩ : Fin 24) i d)
      = (m ((c : Thread nD τ).loc main_arg1) : S2x12x2048x64.Idx → Elt F .f32) (ix4 b h i d) := by
  rw [v1_eq]; exact shapeCast_merge_apply _ _ b h i d

/-- The third input array at `(12 b + h, i, d)` is the third argument at `(b, h, i, d)`. -/
theorem v2_apply :
    (V m c main_v2 : S24x2048x64.Idx → Elt F .f32) (ix3 (⟨12 * b.val + h.val, by omega⟩ : Fin 24) i d)
      = (m ((c : Thread nD τ).loc main_arg2) : S2x12x2048x64.Idx → Elt F .f32) (ix4 b h i d) := by
  rw [v2_eq]; exact shapeCast_merge_apply _ _ b h i d

/-- The fourth input array at `(12 b + h, i, j)` is the mask's bit at `(b, h, i, j)` widened to 32 bits. -/
theorem v4_apply :
    (V m c main_v4 : S24x2048x2048.Idx → Elt F .i32) (ix3 (⟨12 * b.val + h.val, by omega⟩ : Fin 24) i j)
      = ((m ((c : Thread nD τ).loc main_arg3) : S2x12x2048x2048.Idx → Elt F .i1) (ix4 b h i j)).setWidth 32 := by
  rw [v4_eq, extui_apply]; exact congrArg (BitVec.setWidth 32) (shapeCast_merge_apply _ _ b h i j)

/-! ## After the region: what the two results end as -/

section Tail
variable (dats : (p : Fin 1) → (c : Dev nD) → Pipeline.Dat τ (Elt F) Unit ℕ (UR sig nD τ) ℕ (cfgs p) c)

/-- The first result as a whole: the region's first output array with its leading axis split. -/
theorem tail_v6_eq :
    (Pipeline.afterTail₀ cfgs dats 0 (V0 m) [hostOps1] c main_v6 : S2x12x2048x64.Idx → Elt F .f32)
      = shapeCast S2x12x2048x64 ((dats 0 c).arrAt 4 cfg0.N : S24x2048x64.Idx → Elt F .f32) shapeCasts_S24x2048x64_S2x12x2048x64 := by
  unfold Pipeline.afterTail₀
  show StableHlo.after hostOps1 _ (Proc.devRef .tc main_v6) = _
  after_results
  have e : Pipeline.withArrays spec0 c (V0 m c) (fun w => (dats 0 c).arrAt w cfg0.N) (Proc.devRef .tc main_v5_0)
      = (dats 0 c).arrAt 4 cfg0.N :=
    Pipeline.withArrays_arr spec0 launch0.win.arr_inj c (V0 m c) (fun w => (dats 0 c).arrAt w cfg0.N) 4
  rw [e]
  rfl

/-- The second result as a whole: the region's second output array with its leading axis split. -/
theorem tail_v7_eq :
    (Pipeline.afterTail₀ cfgs dats 0 (V0 m) [hostOps1] c main_v7 : S2x12x2048x2048.Idx → Elt F .f32)
      = shapeCast S2x12x2048x2048 ((dats 0 c).arrAt 5 cfg0.N : S24x2048x2048.Idx → Elt F .f32) shapeCasts_S24x2048x2048_S2x12x2048x2048 := by
  unfold Pipeline.afterTail₀
  show StableHlo.after hostOps1 _ (Proc.devRef .tc main_v7) = _
  after_results
  have e : Pipeline.withArrays spec0 c (V0 m c) (fun w => (dats 0 c).arrAt w cfg0.N) (Proc.devRef .tc main_v5_1)
      = (dats 0 c).arrAt 5 cfg0.N :=
    Pipeline.withArrays_arr spec0 launch0.win.arr_inj c (V0 m c) (fun w => (dats 0 c).arrAt w cfg0.N) 5
  rw [e]
  rfl

/-- The first result at `(b, h, i, d)` is the region's first output array at `(12 b + h, i, d)`. -/
theorem tail_v6_apply :
    (Pipeline.afterTail₀ cfgs dats 0 (V0 m) [hostOps1] c main_v6 : S2x12x2048x64.Idx → Elt F .f32) (ix4 b h i d)
      = ((dats 0 c).arrAt 4 cfg0.N : S24x2048x64.Idx → Elt F .f32) (ix3 (⟨12 * b.val + h.val, by omega⟩ : Fin 24) i d) := by
  rw [tail_v6_eq]; exact shapeCast_split_apply _ _ b h i d

/-- The second result at `(b, h, i, j)` is the region's second output array at `(12 b + h, i, j)`. -/
theorem tail_v7_apply :
    (Pipeline.afterTail₀ cfgs dats 0 (V0 m) [hostOps1] c main_v7 : S2x12x2048x2048.Idx → Elt F .f32) (ix4 b h i j)
      = ((dats 0 c).arrAt 5 cfg0.N : S24x2048x2048.Idx → Elt F .f32) (ix3 (⟨12 * b.val + h.val, by omega⟩ : Fin 24) i j) := by
  rw [tail_v7_eq]; exact shapeCast_split_apply _ _ b h i j

end Tail

end Cert.KernelIdeal.HostSide

end
-- ==== Proof.KernelValue.lean ====
/-
  The kernel program's two results as functions of its arguments, over the extended reals.
  Every grid point writes its block of one whole-array function of the region's input arrays back, and the blocks
  cover each output array, so after the region the two output arrays ARE those functions. The host then splits the
  merged (batch, head) axis back; together with the merge before the region this reads the results at
  (batch b, head h, ·, ·) from the arguments at (b, h, ·, ·): the specification's attention weights and context.
  A mask bit widened to a 32-bit word is non-zero exactly when the bit is set.
-/
import proofs.«168028_j42829413876092_2_alg».proof.Proof.Gen.KernelIdeal.Frame
import proofs.«168028_j42829413876092_2_alg».proof.Proof.Flush
import proofs.«168028_j42829413876092_2_alg».proof.Proof.Cover
import proofs.«168028_j42829413876092_2_alg».proof.Proof.KernelHost
import proofs.«168028_j42829413876092_2_alg».proof.Proof.Spec
import Idealize.ShloMosaic.Lib.Pipeline.Value

set_option maxRecDepth 16384

noncomputable section

namespace Cert.KernelIdeal.AttnValue

open Cert.KernelIdeal Cert.KernelIdeal.Gen Idealize.ShloMosaic Idealize.ShloMosaic.TcCoe
open Idealize.ShloMosaic.ValueIdx Idealize.SL.Sem Cert.Attention
open Idealize.ShloMosaic.Pipeline (Dat)

variable (m : (ℓ : Loc nD τ sig) → Buf (Elt Ideal) ℓ) (ρ : Dev nD → PrngReg)

/-- After the region the attention output array is attnArr of the region's input arrays. -/
theorem final5 (c : Dev nD) :
    (dats m 0 c).arrAt 5 cfg0.N = Flush.attnArr (V m c main_v0) (V m c main_v1) (V m c main_v4) :=
  (dats m 0 c).arrAt_eq_of_cover 5 _ (fun t _ => Flush.flushed5_eq m c t) Cover.cover5

/-- After the region the context output array is ctxArr of the region's input arrays. -/
theorem final4 (c : Dev nD) :
    (dats m 0 c).arrAt 4 cfg0.N = Flush.ctxArr (V m c main_v0) (V m c main_v1) (V m c main_v2) (V m c main_v4) :=
  (dats m 0 c).arrAt_eq_of_cover 4 _ (fun t _ => Flush.flushed4_eq m c t) Cover.cover4

/-- A bit widened to a word is non-zero exactly when it is set. -/
theorem ne_zero_setWidth (x : BitVec 1) : IntOp.cmpi .ne (x.setWidth 32) 0#32 = x := by
  rcases BitVec.eq_zero_or_eq_one x with rfl | rfl <;> decide

/-- The second result (the attention weights) is the specification's. -/
theorem v7_eq (c : Dev nD) :
    (Pipeline.afterTail₀ cfgs (dats m) 0 (V0 m) [hostOps1] c main_v7 : S2x12x2048x2048.Idx → EReal)
      = attnOut (m ((c : Thread nD τ).loc main_arg0)) (m ((c : Thread nD τ).loc main_arg1)) (m ((c : Thread nD τ).loc main_arg3)) := by
  funext y
  obtain ⟨b, h, i, j, rfl⟩ : ∃ (b : Fin 2) (h : Fin 12) (i j : Fin 2048), y = ix4 b h i j := ⟨y 0, y 1, y 2, y 3, eq_ix4 y⟩
  refine (HostSide.tail_v7_apply m c b h i j (dats m)).trans ?_
  rw [final5]
  show Flush.arrAttn (V m c main_v0) (V m c main_v1) (V m c main_v4) (⟨12 * b.val + h.val, by omega⟩ : Fin 24) i j
    = attnAt (m ((c : Thread nD τ).loc main_arg0)) (m ((c : Thread nD τ).loc main_arg1)) (m ((c : Thread nD τ).loc main_arg3)) b h i j
  unfold Flush.arrAttn attnAt
  have e1 : (fun d => (V m c main_v0 : S24x2048x64.Idx → EReal) (ix3 (⟨12 * b.val + h.val, by omega⟩ : Fin 24) i d))
      = fun d => ((m ((c : Thread nD τ).loc main_arg0)) : S2x12x2048x64.Idx → EReal) (ix4 b h i d) :=
    funext fun d => HostSide.v0_apply m c b h i d
  have e2 : (fun (j' : Fin 2048) (d : Fin 64) => (V m c main_v1 : S24x2048x64.Idx → EReal) (ix3 (⟨12 * b.val + h.val, by omega⟩ : Fin 24) j' d))
      = fun j' d => ((m ((c : Thread nD τ).loc main_arg1)) : S2x12x2048x64.Idx → EReal) (ix4 b h j' d) :=
    funext fun j' => funext fun d => HostSide.v1_apply m c b h j' d
  have e3 : (fun j' => IntOp.cmpi .ne ((V m c main_v4 : S24x2048x2048.Idx → BitVec 32) (ix3 (⟨12 * b.val + h.val, by omega⟩ : Fin 24) i j')) 0#32)
      = fun j' => ((m ((c : Thread nD τ).loc main_arg3)) : S2x12x2048x2048.Idx → BitVec 1) (ix4 b h i j') :=
    funext fun j' => (congrArg (fun w => IntOp.cmpi .ne w 0#32) (HostSide.v4_apply m c b h i j')).trans (ne_zero_setWidth _)
  rw [e1, e2, e3]

/-- The first result (the context) is the specification's. -/
theorem v6_eq (c : Dev nD) :
    (Pipeline.afterTail₀ cfgs (dats m) 0 (V0 m) [hostOps1] c main_v6 : S2x12x2048x64.Idx → EReal)
      = ctxOut (m ((c : Thread nD τ).loc main_arg0)) (m ((c : Thread nD τ).loc main_arg1)) (m ((c : Thread nD τ).loc main_arg2)) (m ((c : Thread nD τ).loc main_arg3)) := by
  funext y
  obtain ⟨b, h, i, d, rfl⟩ : ∃ (b : Fin 2) (h : Fin 12) (i : Fin 2048) (d : Fin 64), y = ix4 b h i d := ⟨y 0, y 1, y 2, y 3, eq_ix4 y⟩
  refine (HostSide.tail_v6_apply m c b h i d (dats m)).trans ?_
  rw [final4]
  show Flush.arrCtx (V m c main_v0) (V m c main_v1) (V m c main_v2) (V m c main_v4) (⟨12 * b.val + h.val, by omega⟩ : Fin 24) i d
    = ctxAt (m ((c : Thread nD τ).loc main_arg0)) (m ((c : Thread nD τ).loc main_arg1)) (m ((c : Thread nD τ).loc main_arg2)) (m ((c : Thread nD τ).loc main_arg3)) b h i d
  unfold Flush.arrCtx ctxAt
  have e1 : (fun d' => (V m c main_v0 : S24x2048x64.Idx → EReal) (ix3 (⟨12 * b.val + h.val, by omega⟩ : Fin 24) i d'))
      = fun d' => ((m ((c : Thread nD τ).loc main_arg0)) : S2x12x2048x64.Idx → EReal) (ix4 b h i d') :=
    funext fun d' => HostSide.v0_apply m c b h i d'
  have e2 : (fun (j' : Fin 2048) (d' : Fin 64) => (V m c main_v1 : S24x2048x64.Idx → EReal) (ix3 (⟨12 * b.val + h.val, by omega⟩ : Fin 24) j' d'))
      = fun j' d' => ((m ((c : Thread nD τ).loc main_arg1)) : S2x12x2048x64.Idx → EReal) (ix4 b h j' d') :=
    funext fun j' => funext fun d' => HostSide.v1_apply m c b h j' d'
  have e2' : (fun (j' : Fin 2048) (d' : Fin 64) => (V m c main_v2 : S24x2048x64.Idx → EReal) (ix3 (⟨12 * b.val + h.val, by omega⟩ : Fin 24) j' d'))
      = fun j' d' => ((m ((c : Thread nD τ).loc main_arg2)) : S2x12x2048x64.Idx → EReal) (ix4 b h j' d') :=
    funext fun j' => funext fun d' => HostSide.v2_apply m c b h j' d'
  have e3 : (fun j' => IntOp.cmpi .ne ((V m c main_v4 : S24x2048x2048.Idx → BitVec 32) (ix3 (⟨12 * b.val + h.val, by omega⟩ : Fin 24) i j')) 0#32)
      = fun j' => ((m ((c : Thread nD τ).loc main_arg3)) : S2x12x2048x2048.Idx → BitVec 1) (ix4 b h i j') :=
    funext fun j' => (congrArg (fun w => IntOp.cmpi .ne w 0#32) (HostSide.v4_apply m c b h i j')).trans (ne_zero_setWidth _)
  rw [e1, e2, e2', e3]

/-- The kernel program's run: it terminates without fault, its two results are the specification's context and
    attention weights of its arguments, and its arguments end unchanged. -/
theorem run : θ_run defs (onTc (τ := τ) (main (F := Ideal))) ⟨m, fun _ => 0, ρ⟩ fun r => ∀ c : Dev nD,
      r.2.mem ((c : Thread nD τ).loc main_v6) = ctxOut (m ((c : Thread nD τ).loc main_arg0)) (m ((c : Thread nD τ).loc main_arg1)) (m ((c : Thread nD τ).loc main_arg2)) (m ((c : Thread nD τ).loc main_arg3))
      ∧ r.2.mem ((c : Thread nD τ).loc main_v7) = attnOut (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v6 (Pipeline.mem_restRefs_of main_v6 (by decide) (by decide))).trans (v6_eq m c),
      ((h c).2 main_v7 (Pipeline.mem_restRefs_of main_v7 (by decide) (by decide))).trans (v7_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.AttnValue

end
-- ==== Proof.lean ====
/-
  Masked scaled dot-product attention: a blocked kernel against the plain formula, equal over the extended reals.
  Both programs take q, k, v of shape [2, 12, 2048, 64] and a boolean mask of shape [2, 12, 2048, 2048] and return the
  attention weights softmax(where(mask, −10⁹, q·kᵀ·½)) along the key axis and the context weights·v. The kernel merges
  the (batch, head) axes, walks a grid of 24 pairs by 2 halves of the query rows, and in each block of 1024 query rows
  computes four slabs of 256 rows, each a complete softmax over all 2048 keys; it rounds the matrix products' operands
  to a shorter float format, which is the identity on the extended reals. Row by row the two programs apply the same
  operations to the same numbers: the sums over features and over keys are plain finite sums on both sides, the row
  maximum is the same fold of max from −∞ (the reference takes the maximum with −∞ once more, which changes nothing),
  and the three literals ½, −10⁹ and −∞ are the same patterns on both sides. No law that needs finiteness is used, so
  the precondition is not opened.

  The pieces: the per-row specification (Spec); the reference's two results are the specification (RefIsSpec); one
  slab of the kernel body at an index (Slab); what the body leaves in its two output blocks (Block); the grid's index
  maps (Grid) and that the blocks cover both output arrays (Cover); what each grid point writes back (Flush); the host
  reshapes before and after the region (KernelHost); the kernel program's run with its results as the specification
  (KernelValue). The frames of the two kernel programs and the run of the reference are imported generated modules.
-/
import proofs.«168028_j42829413876092_2_alg».proof.Defs
import proofs.«168028_j42829413876092_2_alg».proof.Proof.Gen.Kernel
import proofs.«168028_j42829413876092_2_alg».proof.Proof.Gen.Kernel.Skeleton
import proofs.«168028_j42829413876092_2_alg».proof.Proof.Gen.Kernel.Launch
import proofs.«168028_j42829413876092_2_alg».proof.Proof.Gen.Kernel.Points
import proofs.«168028_j42829413876092_2_alg».proof.Proof.Gen.Kernel.Frame
import proofs.«168028_j42829413876092_2_alg».proof.Proof.Gen.KernelIdeal
import proofs.«168028_j42829413876092_2_alg».proof.Proof.Gen.KernelIdeal.Skeleton
import proofs.«168028_j42829413876092_2_alg».proof.Proof.Gen.KernelIdeal.Launch
import proofs.«168028_j42829413876092_2_alg».proof.Proof.Gen.KernelIdeal.Points
import proofs.«168028_j42829413876092_2_alg».proof.Proof.Gen.KernelIdeal.Frame
import proofs.«168028_j42829413876092_2_alg».proof.Proof.Gen.ReferenceIdeal
import proofs.«168028_j42829413876092_2_alg».proof.Proof.Gen.Pre_finite_inputs
import proofs.«168028_j42829413876092_2_alg».proof.Proof.Gen.ReferenceIdeal.Run
import proofs.«168028_j42829413876092_2_alg».proof.Proof.Gen.ReferenceIdeal.Read
import proofs.«168028_j42829413876092_2_alg».proof.Proof.Spec
import proofs.«168028_j42829413876092_2_alg».proof.Proof.RefIsSpec
import proofs.«168028_j42829413876092_2_alg».proof.Proof.KernelValue
import Idealize.ShloMosaic.Adequacy
import Idealize.ShloMosaic.Init

noncomputable section

namespace Cert.Proof

open Idealize.ShloMosaic Idealize.SL.Sem

/-- The word-level kernel program terminates without fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Run from memories that agree on the arguments, both programs end with the specification's context and attention
    weights of those arguments. -/
theorem algebraic : Cert.algebraic_KernelIdeal_ReferenceIdeal := by
  intro m ρ m' ρ' _ hagree
  refine ⟨fun c => Cert.Attention.ctxOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Attention.attnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    Cert.KernelIdeal.AttnValue.run m ρ, ?_⟩
  refine (θ_run Cert.ReferenceIdeal.defs _ _).mono (fun _ h c => ?_) (Cert.ReferenceIdeal.Value.run (F := Ideal) m' ρ')
  obtain ⟨h15, h14, hrest⟩ := h c
  obtain ⟨g0, g1, g2, g3⟩ := hagree c
  refine ⟨h15.trans ?_, h14.trans ?_, hrest⟩
  · rw [Cert.ReferenceIdeal.Read.val_main_v15_eq, Cert.Attention.Ref.ctx_eq, g0, g1, g2, g3]
  · rw [Cert.ReferenceIdeal.Read.val_main_v14_eq, Cert.Attention.Ref.attn_eq, g0, g1, g3]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
